-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x7 : Shape := ⟨3, ![8, 256, 7]⟩
abbrev S128x8 : Shape := ⟨2, ![128, 8]⟩
abbrev S128 : Shape := ⟨1, ![128]⟩
abbrev S_ : Shape := ⟨0, ![]⟩

class Facts : Prop where
  bcast_S_S8x256x7 : S_.BroadcastsInDim S8x256x7 (![] : Fin 0 → Fin S8x256x7.rank)
  reducesTo_S8x256x7_S_d0_1_2 : S8x256x7.ReducesTo [0, 1, 2] S_
  h_S_ : 0 < S_.numel
  bcast_S_S128x8 : S_.BroadcastsInDim S128x8 (![] : Fin 0 → Fin S128x8.rank)
  reducesTo_S128x8_S_d0_1 : S128x8.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x256x7 .f32) (main_arg1 : FVec F S8x256x7 .f32) (main_arg2 : FVec F S128x8 .f32) (main_arg3 : FVec F S128 .f32) : IVec S_ 1 :=
  let main_v0 : FVec F S8x256x7 .f32 := Host.absf main_arg0
  let main_cst : FVec F S_ .f32 := constant S_ .f32 0x7F800000#32
  let main_v1 : FVec F S8x256x7 .f32 := broadcastInDim S8x256x7 ![] bcast_S_S8x256x7 main_cst
  let main_v2 : IVec S8x256x7 1 := cmpf .olt main_v0 main_v1
  let main_c : IVec S_ 1 := constantI S_ 1 1#1
  let main_v3 : IVec S_ 1 := (fun x v => Host.reduce IntOp.andi x v reducesTo_S8x256x7_S_d0_1_2 h_S_) main_v2 main_c
  let main_v4 : FVec F S8x256x7 .f32 := Host.absf main_arg1
  let main_cst_0 : FVec F S_ .f32 := constant S_ .f32 0x7F800000#32
  let main_v5 : FVec F S8x256x7 .f32 := broadcastInDim S8x256x7 ![] bcast_S_S8x256x7 main_cst_0
  let main_v6 : IVec S8x256x7 1 := cmpf .olt main_v4 main_v5
  let main_c_1 : IVec S_ 1 := constantI S_ 1 1#1
  let main_v7 : IVec S_ 1 := (fun x v => Host.reduce IntOp.andi x v reducesTo_S8x256x7_S_d0_1_2 h_S_) main_v6 main_c_1
  let main_v8 : IVec S_ 1 := andi main_v3 main_v7
  let main_v9 : FVec F S128x8 .f32 := Host.absf main_arg2
  let main_cst_2 : FVec F S_ .f32 := constant S_ .f32 0x7F800000#32
  let main_v10 : FVec F S128x8 .f32 := broadcastInDim S128x8 ![] bcast_S_S128x8 main_cst_2
  let main_v11 : IVec S128x8 1 := cmpf .olt main_v9 main_v10
  let main_c_3 : IVec S_ 1 := constantI S_ 1 1#1
  let main_v12 : IVec S_ 1 := (fun x v => Host.reduce IntOp.andi x v reducesTo_S128x8_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x256x7 : Shape := ⟨3, ![8, 256, 7]⟩
abbrev S128x8 : Shape := ⟨2, ![128, 8]⟩
abbrev S128 : Shape := ⟨1, ![128]⟩
abbrev S8x128 : Shape := ⟨2, ![8, 128]⟩
abbrev S8x256x256x128 : Shape := ⟨4, ![8, 256, 256, 128]⟩
abbrev S1x64x7 : Shape := ⟨3, ![1, 64, 7]⟩
abbrev S1x128x7 : Shape := ⟨3, ![1, 128, 7]⟩
abbrev S1x64x128x128 : Shape := ⟨4, ![1, 64, 128, 128]⟩
abbrev S64x7 : Shape := ⟨2, ![64, 7]⟩
abbrev S128x7 : Shape := ⟨2, ![128, 7]⟩
abbrev S64 : Shape := ⟨1, ![64]⟩
abbrev S64x1 : Shape := ⟨2, ![64, 1]⟩
abbrev S128x1 : Shape := ⟨2, ![128, 1]⟩
abbrev S1x128 : Shape := ⟨2, ![1, 128]⟩
abbrev S64x128 : Shape := ⟨2, ![64, 128]⟩
abbrev S64x128x1 : Shape := ⟨3, ![64, 128, 1]⟩
abbrev S64x128x6 : Shape := ⟨3, ![64, 128, 6]⟩
abbrev S128x2 : Shape := ⟨2, ![128, 2]⟩
abbrev S1x128x2 : Shape := ⟨3, ![1, 128, 2]⟩
abbrev S64x128x2 : Shape := ⟨3, ![64, 128, 2]⟩
abbrev S64x128x8 : Shape := ⟨3, ![64, 128, 8]⟩
abbrev S8192x8 : Shape := ⟨2, ![8192, 8]⟩
abbrev S8192x128 : Shape := ⟨2, ![8192, 128]⟩
abbrev S64x128x128 : Shape := ⟨3, ![64, 128, 128]⟩
abbrev S1x1x128 : Shape := ⟨3, ![1, 1, 128]⟩

abbrev nBuf : Space → Nat
  | .hbm => 6
  | .vmem => 8
  | .smem => 0
  | _ => 0

abbrev bufTy : (tb : Table) → Fin (tcTables nBuf tb) → BufTy
  | .hbm, ⟨0, _⟩ => ⟨S8x256x7, .f32⟩
  | .hbm, ⟨1, _⟩ => ⟨S8x256x7, .f32⟩
  | .hbm, ⟨2, _⟩ => ⟨S128x8, .f32⟩
  | .hbm, ⟨3, _⟩ => ⟨S128, .f32⟩
  | .hbm, ⟨4, _⟩ => ⟨S8x128, .f32⟩
  | .hbm, ⟨5, _⟩ => ⟨S8x256x256x128, .f32⟩
  | .local _ .vmem, ⟨0, _⟩ => ⟨S1x64x7, .f32⟩
  | .local _ .vmem, ⟨1, _⟩ => ⟨S1x64x7, .f32⟩
  | .local _ .vmem, ⟨2, _⟩ => ⟨S1x128x7, .f32⟩
  | .local _ .vmem, ⟨3, _⟩ => ⟨S1x128x7, .f32⟩
  | .local _ .vmem, ⟨4, _⟩ => ⟨S8x128, .f32⟩
  | .local _ .vmem, ⟨5, _⟩ => ⟨S128, .f32⟩
  | .local _ .vmem, ⟨6, _⟩ => ⟨S1x64x128x128, .f32⟩
  | .local _ .vmem, ⟨7, _⟩ => ⟨S1x64x128x128, .f32⟩
  | _, _ => ⟨S8x256x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x64x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x64x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  transposes_S128x8_S8x128_1_0 : S128x8.Transposes [1, 0] S8x128
  inb_S1x64x7_S1x64x7_0_0_0 : ∀ a, (![0, 0, 0] : Fin 3 → Nat) a + S1x64x7.size a ≤ S1x64x7.size a
  h_S1x64x7 : 0 < S1x64x7.numel
  shapeCasts_S1x64x7_S64x7 : S1x64x7.ShapeCasts S64x7
  inb_S1x128x7_S1x128x7_0_0_0 : ∀ a, (![0, 0, 0] : Fin 3 → Nat) a + S1x128x7.size a ≤ S1x128x7.size a
  h_S1x128x7 : 0 < S1x128x7.numel
  shapeCasts_S1x128x7_S128x7 : S1x128x7.ShapeCasts S128x7
  reduces_S64x7_S64 : S64x7.Reduces [1] S64
  natLt_1_32 : 1 < 32
  reduces_S128x7_S128 : S128x7.Reduces [1] S128
  slices_S64x7_o0_0_S64x1 : S64x7.Slices ![0, 0] S64x1
  shapeCasts_S64x1_S64 : S64x1.ShapeCasts S64
  slices_S64x7_o0_1_S64x1 : S64x7.Slices ![0, 1] S64x1
  slices_S64x7_o0_3_S64x1 : S64x7.Slices ![0, 3] S64x1
  slices_S64x7_o0_4_S64x1 : S64x7.Slices ![0, 4] S64x1
  slices_S128x7_o0_0_S128x1 : S128x7.Slices ![0, 0] S128x1
  shapeCasts_S128x1_S128 : S128x1.ShapeCasts S128
  slices_S128x7_o0_1_S128x1 : S128x7.Slices ![0, 1] S128x1
  slices_S128x7_o0_2_S128x1 : S128x7.Slices ![0, 2] S128x1
  slices_S128x7_o0_3_S128x1 : S128x7.Slices ![0, 3] S128x1
  slices_S128x7_o0_4_S128x1 : S128x7.Slices ![0, 4] S128x1
  shapeCasts_S128_S1x128 : S128.ShapeCasts S1x128
  shapeCasts_S64_S64x1 : S64.ShapeCasts S64x1
  broadcasts_S1x128_S64x128 : S1x128.Broadcasts S64x128
  broadcasts_S64x1_S64x128 : S64x1.Broadcasts S64x128
  shapeCasts_S1x128_S1x128 : S1x128.ShapeCasts S1x128
  shapeCasts_S64x128_S64x128x1 : S64x128.ShapeCasts S64x128x1
  concatenates_S64x128x1_S64x128x1_S64x128x1_S64x128x1_S64x128x1_S64x128x1_S64x128x6_d2 : Shape.Concatenates [S64x128x1, S64x128x1, S64x128x1, S64x128x1, S64x128x1, S64x128x1] S64x128x6 2
  slices_S128x7_o0_5_S128x2 : S128x7.Slices ![0, 5] S128x2
  shapeCasts_S128x2_S1x128x2 : S128x2.ShapeCasts S1x128x2
  shapeCasts_S1x128x2_S1x128x2 : S1x128x2.ShapeCasts S1x128x2
  broadcasts_S1x128x2_S64x128x2 : S1x128x2.Broadcasts S64x128x2
  concatenates_S64x128x6_S64x128x2_S64x128x8_d2 : Shape.Concatenates [S64x128x6, S64x128x2] S64x128x8 2
  shapeCasts_S64x128x8_S8192x8 : S64x128x8.ShapeCasts S8192x8
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8192x128_S64x128x128 : S8192x128.ShapeCasts S64x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S64x128x128 : S1x1x128.Broadcasts S64x128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  dot_S8192x8_S8x128_S8192x128_1_0_0_1_n_n_wf : DotDims.WF S8192x8 S8x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x7.size a ≤ S8x256x7.size a
  hwx0_0 : ∀ i : grid0.Coords, EltTy.bits .f32 = 32 ∨ (Rect.block (s := S8x256x7) S1x64x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x7.size a ≤ S8x256x7.size a
  hwx0_1 : ∀ i : grid0.Coords, EltTy.bits .f32 = 32 ∨ (Rect.block (s := S8x256x7) S1x128x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128x128.size a ≤ S8x256x256x128.size a
  hwx0_4 : ∀ i : grid0.Coords, EltTy.bits .f32 = 32 ∨ (Rect.block (s := S8x256x256x128) S1x64x128x128.size (cc0_transform_4 i) (hinb0_4 i)).WholeWords (EltTy.packing .f32)

variable [Facts₀]

def dot_S8192x8_S8x128_S8192x128_1_0_0_1_n_n : DotDims S8192x8 S8x128 S8192x128 where
  lhsContracting := [1]
  rhsContracting := [0]
  lhsNonContracting := [0]
  rhsNonContracting := [1]
  lhsBatch := []
  rhsBatch := []
  wf := dot_S8192x8_S8x128_S8192x128_1_0_0_1_n_n_wf

abbrev win0_0 : Pipeline.Window sig grid0 :=
  Pipeline.Window.ofSpec (Memref.whole main_arg0) S1x64x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x7 : Shape := ⟨3, ![8, 256, 7]⟩
abbrev S128x8 : Shape := ⟨2, ![128, 8]⟩
abbrev S128 : Shape := ⟨1, ![128]⟩
abbrev S_ : Shape := ⟨0, ![]⟩
abbrev S8x256 : Shape := ⟨2, ![8, 256]⟩
abbrev S8x256x1x7 : Shape := ⟨4, ![8, 256, 1, 7]⟩
abbrev S8x1x256x7 : Shape := ⟨4, ![8, 1, 256, 7]⟩
abbrev S8x1x256x1 : Shape := ⟨4, ![8, 1, 256, 1]⟩
abbrev S8x1x256 : Shape := ⟨3, ![8, 1, 256]⟩
abbrev S8x256x1x1 : Shape := ⟨4, ![8, 256, 1, 1]⟩
abbrev S8x256x1 : Shape := ⟨3, ![8, 256, 1]⟩
abbrev S8x256x256 : Shape := ⟨3, ![8, 256, 256]⟩
abbrev S8x256x256x1 : Shape := ⟨4, ![8, 256, 256, 1]⟩
abbrev S8x256x256x6 : Shape := ⟨4, ![8, 256, 256, 6]⟩
abbrev S8x1x256x2 : Shape := ⟨4, ![8, 1, 256, 2]⟩
abbrev S8x256x256x2 : Shape := ⟨4, ![8, 256, 256, 2]⟩
abbrev S8x256x256x8 : Shape := ⟨4, ![8, 256, 256, 8]⟩
abbrev S8x256x256x128 : Shape := ⟨4, ![8, 256, 256, 128]⟩
abbrev S1x1x1x128 : Shape := ⟨4, ![1, 1, 1, 128]⟩

abbrev nBuf : Space → Nat
  | .hbm => 101
  | .vmem => 0
  | .smem => 0
  | _ => 0

abbrev bufTy : (tb : Table) → Fin (tcTables nBuf tb) → BufTy
  | .hbm, ⟨0, _⟩ => ⟨S8x256x7, .f32⟩
  | .hbm, ⟨1, _⟩ => ⟨S8x256x7, .f32⟩
  | .hbm, ⟨2, _⟩ => ⟨S128x8, .f32⟩
  | .hbm, ⟨3, _⟩ => ⟨S128, .f32⟩
  | .hbm, ⟨4, _⟩ => ⟨S_, .f32⟩
  | .hbm, ⟨5, _⟩ => ⟨S8x256x7, .f32⟩
  | .hbm, ⟨6, _⟩ => ⟨S8x256x7, .i1⟩
  | .hbm, ⟨7, _⟩ => ⟨S_, .i1⟩
  | .hbm, ⟨8, _⟩ => ⟨S8x256, .i1⟩
  | .hbm, ⟨9, _⟩ => ⟨S8x256, .i1⟩
  | .hbm, ⟨10, _⟩ => ⟨S8x256, .f32⟩
  | .hbm, ⟨11, _⟩ => ⟨S_, .f32⟩
  | .hbm, ⟨12, _⟩ => ⟨S8x256x7, .f32⟩
  | .hbm, ⟨13, _⟩ => ⟨S8x256x7, .i1⟩
  | .hbm, ⟨14, _⟩ => ⟨S_, .i1⟩
  | .hbm, ⟨15, _⟩ => ⟨S8x256, .i1⟩
  | .hbm, ⟨16, _⟩ => ⟨S8x256, .i1⟩
  | .hbm, ⟨17, _⟩ => ⟨S8x256, .f32⟩
  | .hbm, ⟨18, _⟩ => ⟨S8x256x1x7, .f32⟩
  | .hbm, ⟨19, _⟩ => ⟨S8x1x256x7, .f32⟩
  | .hbm, ⟨20, _⟩ => ⟨S8x1x256x1, .f32⟩
  | .hbm, ⟨21, _⟩ => ⟨S8x1x256, .f32⟩
  | .hbm, ⟨22, _⟩ => ⟨S8x256x1x1, .f32⟩
  | .hbm, ⟨23, _⟩ => ⟨S8x256x1, .f32⟩
  | .hbm, ⟨24, _⟩ => ⟨S8x256x256, .f32⟩
  | .hbm, ⟨25, _⟩ => ⟨S8x256x256, .f32⟩
  | .hbm, ⟨26, _⟩ => ⟨S8x256x256, .f32⟩
  | .hbm, ⟨27, _⟩ => ⟨S8x1x256x1, .f32⟩
  | .hbm, ⟨28, _⟩ => ⟨S8x1x256, .f32⟩
  | .hbm, ⟨29, _⟩ => ⟨S8x256x1x1, .f32⟩
  | .hbm, ⟨30, _⟩ => ⟨S8x256x1, .f32⟩
  | .hbm, ⟨31, _⟩ => ⟨S8x256x256, .f32⟩
  | .hbm, ⟨32, _⟩ => ⟨S8x256x256, .f32⟩
  | .hbm, ⟨33, _⟩ => ⟨S8x256x256, .f32⟩
  | .hbm, ⟨34, _⟩ => ⟨S8x256x1x1, .f32⟩
  | .hbm, ⟨35, _⟩ => ⟨S8x256x1, .f32⟩
  | .hbm, ⟨36, _⟩ => ⟨S8x256x1x1, .f32⟩
  | .hbm, ⟨37, _⟩ => ⟨S8x256x1, .f32⟩
  | .hbm, ⟨38, _⟩ => ⟨S8x1x256x1, .f32⟩
  | .hbm, ⟨39, _⟩ => ⟨S8x1x256, .f32⟩
  | .hbm, ⟨40, _⟩ => ⟨S8x1x256x1, .f32⟩
  | .hbm, ⟨41, _⟩ => ⟨S8x1x256, .f32⟩
  | .hbm, ⟨42, _⟩ => ⟨S8x256x256, .f32⟩
  | .hbm, ⟨43, _⟩ => ⟨S8x256x256, .f32⟩
  | .hbm, ⟨44, _⟩ => ⟨S8x256x256, .f32⟩
  | .hbm, ⟨45, _⟩ => ⟨S8x256x256, .f32⟩
  | .hbm, ⟨46, _⟩ => ⟨S8x256x256, .f32⟩
  | .hbm, ⟨47, _⟩ => ⟨S8x256x1, .f32⟩
  | .hbm, ⟨48, _⟩ => ⟨S8x256x256, .f32⟩
  | .hbm, ⟨49, _⟩ => ⟨S8x256x256, .f32⟩
  | .hbm, ⟨50, _⟩ => ⟨S8x256x256, .f32⟩
  | .hbm, ⟨51, _⟩ => ⟨S8x256x256, .f32⟩
  | .hbm, ⟨52, _⟩ => ⟨S8x256x256, .f32⟩
  | .hbm, ⟨53, _⟩ => ⟨S8x256x256, .f32⟩
  | .hbm, ⟨54, _⟩ => ⟨S8x256x256, .f32⟩
  | .hbm, ⟨55, _⟩ => ⟨S8x256x256, .f32⟩
  | .hbm, ⟨56, _⟩ => ⟨S8x256x256, .f32⟩
  | .hbm, ⟨57, _⟩ => ⟨S8x256x256, .f32⟩
  | .hbm, ⟨58, _⟩ => ⟨S8x256x256, .f32⟩
  | .hbm, ⟨59, _⟩ => ⟨S8x256x256, .f32⟩
  | .hbm, ⟨60, _⟩ => ⟨S8x256x256, .f32⟩
  | .hbm, ⟨61, _⟩ => ⟨S8x256x256, .f32⟩
  | .hbm, ⟨62, _⟩ => ⟨S8x256x256, .f32⟩
  | .hbm, ⟨63, _⟩ => ⟨S8x256x256, .f32⟩
  | .hbm, ⟨64, _⟩ => ⟨S8x256x256, .f32⟩
  | .hbm, ⟨65, _⟩ => ⟨S8x256x256, .f32⟩
  | .hbm, ⟨66, _⟩ => ⟨S8x256x256, .f32⟩
  | .hbm, ⟨67, _⟩ => ⟨S8x256x1, .f32⟩
  | .hbm, ⟨68, _⟩ => ⟨S8x1x256, .f32⟩
  | .hbm, ⟨69, _⟩ => ⟨S8x256x256, .f32⟩
  | .hbm, ⟨70, _⟩ => ⟨S8x256x256, .f32⟩
  | .hbm, ⟨71, _⟩ => ⟨S8x256x256, .f32⟩
  | .hbm, ⟨72, _⟩ => ⟨S8x256x256, .f32⟩
  | .hbm, ⟨73, _⟩ => ⟨S8x256x256, .f32⟩
  | .hbm, ⟨74, _⟩ => ⟨S8x256x256, .f32⟩
  | .hbm, ⟨75, _⟩ => ⟨S8x256x256, .f32⟩
  | .hbm, ⟨76, _⟩ => ⟨S8x1x256x1, .f32⟩
  | .hbm, ⟨77, _⟩ => ⟨S8x1x256, .f32⟩
  | .hbm, ⟨78, _⟩ => ⟨S8x256x256, .f32⟩
  | .hbm, ⟨79, _⟩ => ⟨S_, .f32⟩
  | .hbm, ⟨80, _⟩ => ⟨S8x256x256, .f32⟩
  | .hbm, ⟨81, _⟩ => ⟨S8x256x256, .f32⟩
  | .hbm, ⟨82, _⟩ => ⟨S_, .f32⟩
  | .hbm, ⟨83, _⟩ => ⟨S8x256x256, .f32⟩
  | .hbm, ⟨84, _⟩ => ⟨S8x256x256, .f32⟩
  | .hbm, ⟨85, _⟩ => ⟨S8x256x256, .f32⟩
  | .hbm, ⟨86, _⟩ => ⟨S8x256x256, .f32⟩
  | .hbm, ⟨87, _⟩ => ⟨S8x256x256x1, .f32⟩
  | .hbm, ⟨88, _⟩ => ⟨S8x256x256x1, .f32⟩
  | .hbm, ⟨89, _⟩ => ⟨S8x256x256x1, .f32⟩
  | .hbm, ⟨90, _⟩ => ⟨S8x256x256x1, .f32⟩
  | .hbm, ⟨91, _⟩ => ⟨S8x256x256x1, .f32⟩
  | .hbm, ⟨92, _⟩ => ⟨S8x256x256x1, .f32⟩
  | .hbm, ⟨93, _⟩ => ⟨S8x256x256x6, .f32⟩
  | .hbm, ⟨94, _⟩ => ⟨S8x1x256x2, .f32⟩
  | .hbm, ⟨95, _⟩ => ⟨S8x256x256x2, .f32⟩
  | .hbm, ⟨96, _⟩ => ⟨S8x256x256x8, .f32⟩
  | .hbm, ⟨97, _⟩ => ⟨S8x256x256x128, .f32⟩
  | .hbm, ⟨98, _⟩ => ⟨S1x1x1x128, .f32⟩
  | .hbm, ⟨99, _⟩ => ⟨S8x256x256x128, .f32⟩
  | .hbm, ⟨100, _⟩ => ⟨S8x256x256x128, .f32⟩
  | _, _ => ⟨S8x256x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_2 : Ref sig .tc := ⟨.hbm, 79, rfl⟩
abbrev main_v71 : Ref sig .tc := ⟨.hbm, 80, rfl⟩
abbrev main_v72 : Ref sig .tc := ⟨.hbm, 81, rfl⟩
abbrev main_cst_3 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩

abbrev nD : Nat := 1
abbrev τ : Topo := Topo.v7x

variable {F : FTy → Type} [FloatOps F]

class Facts₀ : Prop where
  bcast_S_S8x256x7 : S_.BroadcastsInDim S8x256x7 (![] : Fin 0 → Fin S8x256x7.rank)
  reducesTo_S8x256x7_S8x256_d2 : S8x256x7.ReducesTo [2] S8x256
  h_S_ : 0 < S_.numel
  bcast_S8x256x7_S8x256x1x7_0_1_3 : S8x256x7.BroadcastsInDim S8x256x1x7 (![0, 1, 3] : Fin 3 → Fin S8x256x1x7.rank)
  bcast_S8x256x7_S8x1x256x7_0_2_3 : S8x256x7.BroadcastsInDim S8x1x256x7 (![0, 2, 3] : Fin 3 → Fin S8x1x256x7.rank)
  slices_S8x1x256x7_S8x1x256x1_0_0_0_0 : S8x1x256x7.Slices ![0, 0, 0, 0] S8x1x256x1
  shapeCasts_S8x1x256x1_S8x1x256 : S8x1x256x1.ShapeCasts S8x1x256
  slices_S8x256x1x7_S8x256x1x1_0_0_0_0 : S8x256x1x7.Slices ![0, 0, 0, 0] S8x256x1x1
  shapeCasts_S8x256x1x1_S8x256x1 : S8x256x1x1.ShapeCasts S8x256x1
  bcast_S8x1x256_S8x256x256_0_1_2 : S8x1x256.BroadcastsInDim S8x256x256 (![0, 1, 2] : Fin 3 → Fin S8x256x256.rank)
  bcast_S8x256x1_S8x256x256_0_1_2 : S8x256x1.BroadcastsInDim S8x256x256 (![0, 1, 2] : Fin 3 → Fin S8x256x256.rank)
  slices_S8x1x256x7_S8x1x256x1_0_0_0_1 : S8x1x256x7.Slices ![0, 0, 0, 1] S8x1x256x1
  slices_S8x256x1x7_S8x256x1x1_0_0_0_1 : S8x256x1x7.Slices ![0, 0, 0, 1] S8x256x1x1
  slices_S8x256x1x7_S8x256x1x1_0_0_0_3 : S8x256x1x7.Slices ![0, 0, 0, 3] S8x256x1x1
  slices_S8x256x1x7_S8x256x1x1_0_0_0_4 : S8x256x1x7.Slices ![0, 0, 0, 4] S8x256x1x1
  slices_S8x1x256x7_S8x1x256x1_0_0_0_3 : S8x1x256x7.Slices ![0, 0, 0, 3] S8x1x256x1
  slices_S8x1x256x7_S8x1x256x1_0_0_0_4 : S8x1x256x7.Slices ![0, 0, 0, 4] S8x1x256x1
  bcast_S8x256_S8x256x1_0_1 : S8x256.BroadcastsInDim S8x256x1 (![0, 1] : Fin 2 → Fin S8x256x1.rank)
  bcast_S8x256_S8x1x256_0_2 : S8x256.BroadcastsInDim S8x1x256 (![0, 2] : Fin 2 → Fin S8x1x256.rank)
  slices_S8x1x256x7_S8x1x256x1_0_0_0_2 : S8x1x256x7.Slices ![0, 0, 0, 2] S8x1x256x1
  bcast_S_S8x256x256 : S_.BroadcastsInDim S8x256x256 (![] : Fin 0 → Fin S8x256x256.rank)
  bcast_S8x256x256_S8x256x256x1_0_1_2 : S8x256x256.BroadcastsInDim S8x256x256x1 (![0, 1, 2] : Fin 3 → Fin S8x256x256x1.rank)
  concatenates_S8x256x256x1_S8x256x256x1_S8x256x256x1_S8x256x256x1_S8x256x256x1_S8x256x256x1_S8x256x256x6_d3 : Shape.Concatenates [S8x256x256x1, S8x256x256x1, S8x256x256x1, S8x256x256x1, S8x256x256x1, S8x256x256x1] S8x256x256x6 3
  slices_S8x1x256x7_S8x1x256x2_0_0_0_5 : S8x1x256x7.Slices ![0, 0, 0, 5] S8x1x256x2
  bcast_S8x1x256x2_S8x256x256x2_0_1_2_3 : S8x1x256x2.BroadcastsInDim S8x256x256x2 (![0, 1, 2, 3] : Fin 4 → Fin S8x256x256x2.rank)
  concatenates_S8x256x256x6_S8x256x256x2_S8x256x256x8_d3 : Shape.Concatenates [S8x256x256x6, S8x256x256x2] S8x256x256x8 3
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  dot_S8x256x256x8_S128x8_S8x256x256x128_3_1_012_0_n_n_wf : DotDims.WF S8x256x256x8 S128x8 S8x256x256x128 [3] [1] [0, 1, 2] [0] [] []

variable [Facts₀]

def dot_S8x256x256x8_S128x8_S8x256x256x128_3_1_012_0_n_n : DotDims S8x256x256x8 S128x8 S8x256x256x128 where
  lhsContracting := [3]
  rhsContracting := [1]
  lhsNonContracting := [0, 1, 2]
  rhsNonContracting := [0]
  lhsBatch := []
  rhsBatch := []
  wf := dot_S8x256x256x8_S128x8_S8x256x256x128_3_1_012_0_n_n_wf

class Facts : Prop extends Facts₀ where

variable [Facts]
-- ==== Proof.PairEdge.lean ====
/-
  The pairwise edge embedding, as one function of the four argument arrays.

  Two sets of agents per scene g : Fin 8, each agent a row of seven numbers (x, y, v, sin, cos, and two extras).
  For a pair (row r of the first set, row c of the second) the edge has eight features: the displacement of the
  second agent from the first rotated into the first agent's heading frame and divided by ten (two numbers), the
  sine and cosine of the heading difference (two numbers), those two again multiplied by the second agent's
  speed, and the second agent's two extras. The first four are multiplied by a validity mask: an agent whose
  seven numbers are all zero is padding and counts zero, any other counts one, and the pair's mask is the product.
  The output at (g, r, c, h) is the edge's features dotted with row h of the weight matrix, plus the bias at h.

  Everything is over the extended reals; the literal ten is kept as the value of its binary pattern and is never
  evaluated, since both programs carry the same pattern.
-/
import Idealize.ShloMosaic.PureOps.Ideal
import Idealize.ShloMosaic.Lib.ValueIdx

noncomputable section

namespace Cert.PairEdge

open Idealize.ShloMosaic Idealize.ShloMosaic.ValueIdx

/-- The divisor of the two displacement features: the value of the pattern of the float ten. -/
def ten : EReal := Ideal.ofBits .f32 0x41200000#32

/-- An agent counts one unless all seven of its numbers are zero. -/
def valid (A : Fin 7 → EReal) : EReal := if ∀ k, A k = 0 then 0 else 1

/-- The pair's mask. -/
def mask (A1 A2 : Fin 7 → EReal) : EReal := valid A1 * valid A2

/-- The displacement along x rotated into the first agent's frame, masked. -/
def dxr (A1 A2 : Fin 7 → EReal) : EReal := (A1 4 * (A2 0 - A1 0) + A1 3 * (A2 1 - A1 1)) * mask A1 A2
/-- The displacement along y rotated into the first agent's frame, masked. -/
def dyr (A1 A2 : Fin 7 → EReal) : EReal := (-(A1 3) * (A2 0 - A1 0) + A1 4 * (A2 1 - A1 1)) * mask A1 A2
/-- The sine of the heading difference, masked. -/
def dsin (A1 A2 : Fin 7 → EReal) : EReal := (A2 3 * A1 4 - A2 4 * A1 3) * mask A1 A2
/-- The cosine of the heading difference, masked. -/
def dcos (A1 A2 : Fin 7 → EReal) : EReal := (A2 4 * A1 4 + A2 3 * A1 3) * mask A1 A2

/-- The eight features of the edge from agent A1 to agent A2. -/
def edge (A1 A2 : Fin 7 → EReal) : Fin 8 → EReal :=
  ![Ideal.div (dxr A1 A2) ten, Ideal.div (dyr A1 A2) ten, dsin A1 A2, dcos A1 A2,
    A2 2 * dsin A1 A2, A2 2 * dcos A1 A2, A2 5, A2 6]

/-- The output at scene g, first agent r, second agent c, channel h. -/
def outAt (a1 a2 : (⟨3, ![8, 256, 7]⟩ : Shape).Idx → EReal) (W : (⟨2, ![128, 8]⟩ : Shape).Idx → EReal)
    (b : (⟨1, ![128]⟩ : Shape).Idx → EReal) (g : Fin 8) (r c : Fin 256) (h : Fin 128) : EReal :=
  (∑ e : Fin 8, edge (fun k => a1 (ix3 g r k)) (fun k => a2 (ix3 g c k)) e * W (ix2 h e)) + b (ix1 h)

/-- The whole output array. -/
def out (a1 a2 : (⟨3, ![8, 256, 7]⟩ : Shape).Idx → EReal) (W : (⟨2, ![128, 8]⟩ : Shape).Idx → EReal)
    (b : (⟨1, ![128]⟩ : Shape).Idx → EReal) : (⟨4, ![8, 256, 256, 128]⟩ : Shape).Idx → EReal :=
  fun i => outAt a1 a2 W b (i 0) (i 1) (i 2) (i 3)

theorem out_ix4 (a1 a2 : (⟨3, ![8, 256, 7]⟩ : Shape).Idx → EReal) (W : (⟨2, ![128, 8]⟩ : Shape).Idx → EReal)
    (b : (⟨1, ![128]⟩ : Shape).Idx → EReal) (g : Fin 8) (r c : Fin 256) (h : Fin 128) :
    out a1 a2 W b (ix4 g r c h) = outAt a1 a2 W b g r c h := rfl

end Cert.PairEdge

end
-- ==== Proof.MaskLaw.lean ====
/-
  The validity mask as a computation through lanes, and why it equals the specification's mask.

  For a row f of seven extended reals, put a one in each lane whose entry is zero and a zero elsewhere, take the
  minimum of the seven lanes started from plus infinity, ask whether that minimum is positive, negate the bit, widen
  it to a word and read the word as a signed integer. The minimum is positive exactly when every lane holds a one,
  that is, when every entry is zero; so the result is zero for an all-zero row and one for any other row.
-/
import Idealize.ShloMosaic.PureOps.Ideal.Laws
import proofs.«160449_j30537217474895_2_alg».proof.Proof.PairEdge

noncomputable section

namespace Cert.PairEdge.MaskLaw

open Idealize.ShloMosaic Idealize.ShloMosaic.ValueIdx Cert.PairEdge

variable {φ : FTy}

/-- A minimum reduction over one axis, read at the ideal values: the fold of `min` from the accumulator's value over
    that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The word of the float one. -/
theorem ofBits_one_f32 : Ideal.ofBits .f32 0x3F800000#32 = 1 := by
  simp [Ideal.ofBits, Ideal.ieee, -EReal.coe_mul]; norm_num

/-- The word of plus infinity. -/
theorem ofBits_top_f32 : Ideal.ofBits .f32 0x7F800000#32 = ⊤ := by simp [Ideal.ofBits, Ideal.ieee]

/-- The lane of an entry: one if the entry is zero, zero if not. -/
def lane (x : EReal) : EReal := Scalar.select (Ideal.cmp .oeq x 0) 1 0

theorem lane_pos (x : EReal) : 0 < lane x ↔ x = 0 := by
  unfold lane Scalar.select Ideal.cmp
  by_cases h : x = 0
  · simp [h]
  · simp [h]

/-- The minimum of the lanes, started from plus infinity, is positive exactly when every entry is zero. -/
theorem fold_lane_pos {n : Nat} (f : Fin n → EReal) :
    0 < (Finset.univ : Finset (Fin n)).fold min ⊤ (fun k => lane (f k)) ↔ ∀ k, f k = 0 := by
  rw [Finset.lt_fold_min]
  simp [lane_pos]

/-- The negated bit, widened and read as a signed integer: zero if the statement holds, one if not. -/
theorem word_of_bit (P : Prop) [Decidable P] :
    ((((IntOp.xori (BitVec.ofBool (decide P)) 1#1).setWidth 32).toInt : ℝ) : EReal) = if P then 0 else 1 := by
  by_cases h : P
  · simp [h, IntOp.xori]
  · simp [h, IntOp.xori]

/-- The whole chain on a row of seven entries is the specification's mask. -/
theorem chain_eq_valid (f : Fin 7 → EReal) :
    ((((IntOp.xori (Ideal.cmp .ogt ((Finset.univ : Finset (Fin 7)).fold min ⊤ (fun k => lane (f k))) 0)
        1#1).setWidth 32).toInt : ℝ) : EReal) = valid f := by
  have h := word_of_bit (0 < (Finset.univ : Finset (Fin 7)).fold min ⊤ (fun k => lane (f k)))
  refine h.trans ?_
  unfold valid
  simp only [fold_lane_pos]

end Cert.PairEdge.MaskLaw

end
-- ==== Proof.MaskKernel.lean ====
/-
  The validity mask of an agent, as the kernel computes it.

  "All seven numbers of the row are zero" is asked through the lanes: each entry compared with zero gives one or
  zero, the minimum of the seven (started from plus infinity) is positive exactly when every entry was zero, and the
  negated bit, widened to a word, is read as a signed integer. The result is zero for an all-zero row and one for any
  other row.
-/
import proofs.«160449_j30537217474895_2_alg».proof.Proof.PairEdge
import proofs.«160449_j30537217474895_2_alg».proof.Proof.Gen.KernelIdeal.Skeleton
import proofs.«160449_j30537217474895_2_alg».proof.Proof.MaskLaw
import Idealize.ShloMosaic.Lib.ValueLayout

noncomputable section

namespace Cert.PairEdge.MaskKernel

open Idealize.ShloMosaic Idealize.ShloMosaic.ValueIdx Cert.PairEdge Cert.PairEdge.MaskLaw

/-- The index a reduction over the second axis of a matrix inserts: row p, column k. -/
theorem lift_ix1 {a : Nat} (h : (⟨2, ![a, 7]⟩ : Shape).Reduces [1] ⟨1, ![a]⟩) (p : Fin a) (k : Fin 7) :
    h.lift (ix1 p) k = ix2 p k := by
  funext c
  fin_cases c
  · exact Fin.ext rfl
  · exact Fin.ext rfl

/-- The minimum over the second axis, started from plus infinity, of a matrix whose row p holds the lanes of f. -/
theorem min_read {a : Nat} (src : FVec Ideal ⟨2, ![a, 7]⟩ .f32) (h : (⟨2, ![a, 7]⟩ : Shape).Reduces [1] ⟨1, ![a]⟩)
    (hφ : FKind.Formats .f32) (hacc : (0x7F800000#32 : BitVec 32) = FKind.minimumf.neutral .f32 hφ) (p : Fin a)
    (f : Fin 7 → EReal) (hsrc : ∀ k, src (ix2 p k) = lane (f k)) :
    multiReduction (F := Ideal) .minimumf [1] ⟨1, ![a]⟩ src 0x7F800000#32 h hφ hacc (ix1 p)
      = (Finset.univ : Finset (Fin 7)).fold min ⊤ (fun k => lane (f k)) := by
  rw [multiReduction_minimumf_single]
  show Finset.fold min (Ideal.ofBits .f32 0x7F800000#32) _ _ = _
  rw [ofBits_top_f32]
  refine congrArg (fun g : Fin 7 → EReal => Finset.fold min ⊤ g Finset.univ) ?_
  funext k
  exact (congrArg src (lift_ix1 h p k)).trans (hsrc k)

/-- The whole chain over a matrix of rows of seven, read at row p: the specification's mask of that row. -/
theorem mask_chain {a : Nat} (v : FVec Ideal ⟨2, ![a, 7]⟩ .f32) (h : (⟨2, ![a, 7]⟩ : Shape).Reduces [1] ⟨1, ![a]⟩)
    (hφ : FKind.Formats .f32) (hacc : (0x7F800000#32 : BitVec 32) = FKind.minimumf.neutral .f32 hφ) (n32 : 1 < 32)
    (p : Fin a) :
    (sitofp .f32 (extui 32 (xori (cmpf .ogt (multiReduction .minimumf [1] ⟨1, ![a]⟩
        (select (cmpf .oeq v (broadcast ⟨2, ![a, 7]⟩ (Scalar.ofBits (F := Ideal) .f32 0x00000000#32)))
          (broadcast ⟨2, ![a, 7]⟩ (Scalar.ofBits (F := Ideal) .f32 0x3F800000#32))
          (broadcast ⟨2, ![a, 7]⟩ (Scalar.ofBits (F := Ideal) .f32 0x00000000#32)))
        0x7F800000#32 h hφ hacc) (broadcast ⟨1, ![a]⟩ (Scalar.ofBits (F := Ideal) .f32 0x00000000#32)))
        (constantI ⟨1, ![a]⟩ 1 1#1)) n32) : FVec Ideal ⟨1, ![a]⟩ .f32) (ix1 p)
      = valid (fun k => v (ix2 p k)) := by
  refine Eq.trans ?_ (chain_eq_valid (fun k => v (ix2 p k)))
  show ((((IntOp.xori (Ideal.cmp .ogt (multiReduction (F := Ideal) .minimumf [1] ⟨1, ![a]⟩ _ 0x7F800000#32 h hφ hacc (ix1 p))
      (Ideal.ofBits .f32 0x00000000#32)) 1#1).setWidth 32).toInt : ℝ) : EReal) = _
  rw [min_read _ h hφ hacc p (fun k => v (ix2 p k)) (fun k => by
    show Scalar.select (Ideal.cmp .oeq (v (ix2 p k)) (Ideal.ofBits .f32 0x00000000#32))
      (Ideal.ofBits .f32 0x3F800000#32) (Ideal.ofBits .f32 0x00000000#32) = _
    rw [Ideal.ofBits_zero_f32, ofBits_one_f32]; rfl), Ideal.ofBits_zero_f32]

/-- The kernel's mask of row p of its block of the first agents. -/
theorem kernel_valid1 (x0 : Vec Ideal Cert.KernelIdeal.S1x64x7 .f32) (p : Fin 64) :
    Cert.KernelIdeal.Gen.k0_pay4 (F := Ideal) x0 (ix1 p) = valid (fun k => x0 (ix3 (0 : Fin 1) p k)) := by
  refine (mask_chain (Cert.KernelIdeal.Gen.k0_pay2 (F := Ideal) x0) _ _ _ _ p).trans ?_
  refine congrArg valid (funext fun k => ?_)
  exact shapeCast_1ab_ab_apply x0 _ p k

/-- The kernel's mask of row q of its block of the second agents. -/
theorem kernel_valid2 (x1 : Vec Ideal Cert.KernelIdeal.S1x128x7 .f32) (q : Fin 128) :
    Cert.KernelIdeal.Gen.k0_pay5 (F := Ideal) x1 (ix1 q) = valid (fun k => x1 (ix3 (0 : Fin 1) q k)) := by
  refine (mask_chain (Cert.KernelIdeal.Gen.k0_pay3 (F := Ideal) x1) _ _ _ _ q).trans ?_
  refine congrArg valid (funext fun k => ?_)
  exact shapeCast_1ab_ab_apply x1 _ q k

end Cert.PairEdge.MaskKernel

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.LibPairLayout.lean ====
/-
  Layout operations read at an index, for a kernel that stacks per-pair quantities on a last axis:
  a column [a, 1] laid down as a vector [a]; a matrix [a, b] given a trailing unit axis [a, b, 1]; an array [1, b, c]
  or [1, 1, c] repeated over its leading unit axes up to [a, b, c]; a vector [c] stood up as [1, 1, c]; six arrays
  [a, b, 1] joined along the last axis into [a, b, 6] (entry (p, q, e) is piece e at (p, q, 0)); and two arrays
  [a, b, m] and [a, b, n] joined along the last axis (entry (p, q, e) is the first piece at e for e < m, the second at
  e - m otherwise).  Row-major order throughout.
-/
import Idealize.ShloMosaic.Lib.Pipeline.Value
import Idealize.ShloMosaic.Lib.ValueIdx
import Idealize.ShloMosaic.Lib.ValueLayout

noncomputable section

namespace Cert.Lib.PairLayout

open Idealize.ShloMosaic Idealize.ShloMosaic.ValueIdx

variable {α : Type}

/-- A column [a, 1] laid down as a vector [a]: entry p is the column at (p, 0). -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A matrix [a, b] given a trailing unit axis [a, b, 1]: the entries are the same. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An array [1, b, c] repeated over its leading axis to [a, b, c]: entry (p, q, d) is the operand at (0, q, d). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

/-- An array [1, 1, c] repeated over its two leading axes to [a, b, c]: entry (p, q, d) is the operand at (0, 0, d). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (d : Fin c) :
    broadcastTo ⟨3, ![a, b, c]⟩ v h (ix3 p q d) = v (ix3 (0 : Fin 1) (0 : Fin 1) d) := by
  refine broadcastTo_apply v h (ix3 p q d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- A vector [c] stood up as [1, 1, c]: entry (u, v, d) is the vector at d. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    rw [hu, hv]
    simp)

/-- A bias vector [c] stood up as [1, 1, c] and repeated to [a, b, c]: entry (p, q, d) is the bias at d. -/
theorem bias3_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (d : Fin c) :
    broadcastTo ⟨3, ![a, b, c]⟩ (shapeCast ⟨3, ![1, 1, c]⟩ x h1) h2 (ix3 p q d) = x (ix1 d) := by
  rw [broadcastTo_11c_abc_apply, shapeCast_c_11c_apply]

/-- Two arrays joined along the last axis, read in the first piece: entry (p, q, e) with e < m. -/
theorem concat2_left {a b m n k : ℕ} (x : (⟨3, ![a, b, m]⟩ : Shape).Idx → α) (y : (⟨3, ![a, b, n]⟩ : Shape).Idx → α)
    (h : Shape.Concatenates [(⟨3, ![a, b, m]⟩ : Shape), ⟨3, ![a, b, n]⟩] ⟨3, ![a, b, k]⟩ (2 : Fin 3))
    (p : Fin a) (q : Fin b) (e : Fin k) (e' : Fin m) (he : e'.val = e.val) :
    concatenate ⟨3, ![a, b, k]⟩ (2 : Fin 3) [⟨⟨3, ![a, b, m]⟩, x⟩, ⟨⟨3, ![a, b, n]⟩, y⟩] h (ix3 p q e) = x (ix3 p q e') :=
  concatenate_pair_apply_left (2 : Fin 3) x y h (ix3 p q e) rfl (ix3 p q e') (fun bb => by
    match bb with
    | ⟨0, _⟩ => rfl
    | ⟨1, _⟩ => rfl
    | ⟨2, _⟩ => exact he)

/-- Two arrays joined along the last axis, read in the second piece: entry (p, q, e) with e = m + e'. -/
theorem concat2_right {a b m n k : ℕ} (x : (⟨3, ![a, b, m]⟩ : Shape).Idx → α) (y : (⟨3, ![a, b, n]⟩ : Shape).Idx → α)
    (h : Shape.Concatenates [(⟨3, ![a, b, m]⟩ : Shape), ⟨3, ![a, b, n]⟩] ⟨3, ![a, b, k]⟩ (2 : Fin 3))
    (p : Fin a) (q : Fin b) (e : Fin k) (e' : Fin n) (he : e'.val + m = e.val) :
    concatenate ⟨3, ![a, b, k]⟩ (2 : Fin 3) [⟨⟨3, ![a, b, m]⟩, x⟩, ⟨⟨3, ![a, b, n]⟩, y⟩] h (ix3 p q e) = y (ix3 p q e') :=
  concatenate_pair_apply_right (2 : Fin 3) x y h (ix3 p q e) rfl rfl (ix3 p q e') (fun bb hb => by
    match bb with
    | ⟨0, _⟩ => rfl
    | ⟨1, _⟩ => rfl
    | ⟨2, _⟩ => exact absurd rfl hb) (by exact he)

/-- Six arrays [a, b, 1] joined along the last axis: entry (p, q, e) is piece e at (p, q, 0). -/
theorem concat6_at {a b : ℕ} (x0 x1 x2 x3 x4 x5 : (⟨3, ![a, b, 1]⟩ : Shape).Idx → α)
    (h : Shape.Concatenates [(⟨3, ![a, b, 1]⟩ : Shape), ⟨3, ![a, b, 1]⟩, ⟨3, ![a, b, 1]⟩, ⟨3, ![a, b, 1]⟩,
      ⟨3, ![a, b, 1]⟩, ⟨3, ![a, b, 1]⟩] ⟨3, ![a, b, 6]⟩ (2 : Fin 3))
    (p : Fin a) (q : Fin b) (e : Fin 6) :
    concatenate ⟨3, ![a, b, 6]⟩ (2 : Fin 3) [⟨⟨3, ![a, b, 1]⟩, x0⟩, ⟨⟨3, ![a, b, 1]⟩, x1⟩, ⟨⟨3, ![a, b, 1]⟩, x2⟩,
        ⟨⟨3, ![a, b, 1]⟩, x3⟩, ⟨⟨3, ![a, b, 1]⟩, x4⟩, ⟨⟨3, ![a, b, 1]⟩, x5⟩] h (ix3 p q e)
      = (![x0, x1, x2, x3, x4, x5] : Fin 6 → ((⟨3, ![a, b, 1]⟩ : Shape).Idx → α)) e (ix3 p q (0 : Fin 1)) :=
  concatenate_ofFn_unit_apply (t := ⟨3, ![a, b, 6]⟩) (s₁ := ⟨3, ![a, b, 1]⟩) (2 : Fin 3)
    (![x0, x1, x2, x3, x4, x5] : Fin 6 → ((⟨3, ![a, b, 1]⟩ : Shape).Idx → α)) h rfl rfl (ix3 p q e) e rfl
    (ix3 p q (0 : Fin 1)) (fun bb hb => by
      match bb with
      | ⟨0, _⟩ => rfl
      | ⟨1, _⟩ => rfl
      | ⟨2, _⟩ => exact absurd rfl hb)

end Cert.Lib.PairLayout

end
-- ==== Proof.BodyTables.lean ====
/-
  The kernel body's intermediate tables read at an entry.

  From the block of 64 first agents and the block of 128 second agents the body makes vectors (one number per agent:
  a column of the block) and 64 x 128 tables (one number per pair) by repeating a vector of first agents along the
  columns and a vector of second agents along the rows. Each lemma reads one of them at an explicit entry.
-/
import proofs.«160449_j30537217474895_2_alg».proof.Proof.PairEdge
import proofs.«160449_j30537217474895_2_alg».proof.Proof.LibLayout
import proofs.«160449_j30537217474895_2_alg».proof.Proof.LibVecIx2
import proofs.«160449_j30537217474895_2_alg».proof.Proof.LibPairLayout
import proofs.«160449_j30537217474895_2_alg».proof.Proof.Gen.KernelIdeal.Skeleton
import Idealize.ShloMosaic.Lib.ValueLayout
import Idealize.ShloMosaic.PureOps.Ideal.Laws

noncomputable section

namespace Cert.PairEdge.Body

open Idealize.ShloMosaic Idealize.ShloMosaic.ValueIdx Cert.PairEdge
open Cert.KernelIdeal Cert.KernelIdeal.Gen Cert.LibLayout Cert.Lib.VecIx2 Cert.Lib.PairLayout

/-- The block of first agents without its leading unit axis. -/
theorem rows1_at (v0 : Vec Ideal S1x64x7 .f32) (p : Fin 64) (k : Fin 7) :
    k0_pay2 (F := Ideal) v0 (ix2 p k) = v0 (ix3 (0 : Fin 1) p k) := by
  unfold k0_pay2
  exact shapeCast_1ab_ab_apply v0 _ p k

/-- The block of second agents without its leading unit axis. -/
theorem rows2_at (v2 : Vec Ideal S1x128x7 .f32) (q : Fin 128) (k : Fin 7) :
    k0_pay3 (F := Ideal) v2 (ix2 q k) = v2 (ix3 (0 : Fin 1) q k) := by
  unfold k0_pay3
  exact shapeCast_1ab_ab_apply v2 _ q k

/-- Column o of a block of agents, laid down as a vector. -/
theorem column_at {a : ℕ} (o : ℕ) (X : (⟨2, ![a, 7]⟩ : Shape).Idx → EReal)
    (hs : (⟨2, ![a, 7]⟩ : Shape).Slices ![0, o] ⟨2, ![a, 1]⟩) (hc : (⟨2, ![a, 1]⟩ : Shape).ShapeCasts ⟨1, ![a]⟩)
    (p : Fin a) (k : Fin 7) (hk : k.val = o) :
    shapeCast ⟨1, ![a]⟩ (extractStridedSlice ⟨2, ![a, 1]⟩ ![0, o] X hs) hc (ix1 p) = X (ix2 p k) := by
  rw [shapeCast_a1_a_apply, slice_col]
  exact congrArg X (congrArg (ix2 p) (Fin.ext hk.symm))

theorem x1_at (v0 : Vec Ideal S1x64x7 .f32) (p : Fin 64) : k0_pay6 (F := Ideal) v0 (ix1 p) = v0 (ix3 (0 : Fin 1) p 0) := by
  unfold k0_pay6
  exact (column_at 0 (k0_pay2 v0) _ _ p 0 rfl).trans (rows1_at v0 p 0)
theorem y1_at (v0 : Vec Ideal S1x64x7 .f32) (p : Fin 64) : k0_pay7 (F := Ideal) v0 (ix1 p) = v0 (ix3 (0 : Fin 1) p 1) := by
  unfold k0_pay7
  exact (column_at 1 (k0_pay2 v0) _ _ p 1 rfl).trans (rows1_at v0 p 1)
theorem sin1_at (v0 : Vec Ideal S1x64x7 .f32) (p : Fin 64) : k0_pay8 (F := Ideal) v0 (ix1 p) = v0 (ix3 (0 : Fin 1) p 3) := by
  unfold k0_pay8
  exact (column_at 3 (k0_pay2 v0) _ _ p 3 rfl).trans (rows1_at v0 p 3)
theorem cos1_at (v0 : Vec Ideal S1x64x7 .f32) (p : Fin 64) : k0_pay9 (F := Ideal) v0 (ix1 p) = v0 (ix3 (0 : Fin 1) p 4) := by
  unfold k0_pay9
  exact (column_at 4 (k0_pay2 v0) _ _ p 4 rfl).trans (rows1_at v0 p 4)
theorem x2_at (v2 : Vec Ideal S1x128x7 .f32) (q : Fin 128) : k0_pay10 (F := Ideal) v2 (ix1 q) = v2 (ix3 (0 : Fin 1) q 0) := by
  unfold k0_pay10
  exact (column_at 0 (k0_pay3 v2) _ _ q 0 rfl).trans (rows2_at v2 q 0)
theorem y2_at (v2 : Vec Ideal S1x128x7 .f32) (q : Fin 128) : k0_pay11 (F := Ideal) v2 (ix1 q) = v2 (ix3 (0 : Fin 1) q 1) := by
  unfold k0_pay11
  exact (column_at 1 (k0_pay3 v2) _ _ q 1 rfl).trans (rows2_at v2 q 1)

/-- The second agents' speeds, still a column. -/
theorem speed2_at (v2 : Vec Ideal S1x128x7 .f32) (q : Fin 128) (u : Fin 1) :
    k0_pay12 (F := Ideal) v2 (ix2 q u) = v2 (ix3 (0 : Fin 1) q 2) := by
  unfold k0_pay12
  exact (slice_col 2 (k0_pay3 v2) _ q u).trans (rows2_at v2 q 2)

/-- A vector of first agents repeated along the columns. -/
theorem along_cols {a b : ℕ} (x : (⟨1, ![a]⟩ : Shape).Idx → EReal)
    (h1 : (⟨1, ![a]⟩ : Shape).ShapeCasts ⟨2, ![a, 1]⟩) (h2 : (⟨2, ![a, 1]⟩ : Shape).Broadcasts ⟨2, ![a, b]⟩)
    (p : Fin a) (q : Fin b) :
    broadcastTo ⟨2, ![a, b]⟩ (shapeCast ⟨2, ![a, 1]⟩ x h1) h2 (ix2 p q) = x (ix1 p) := by
  rw [bcast_col, shapeCast_a_a1_apply]

/-- A displacement table: second agent's coordinate minus first agent's. -/
theorem dx_at (v27 : FVec Ideal S64 .f32) (v35 : FVec Ideal S128 .f32) (p : Fin 64) (q : Fin 128) :
    k0_pay13 (F := Ideal) v27 v35 (ix2 p q) = v35 (ix1 q) - v27 (ix1 p) := by
  unfold k0_pay13
  show broadcastTo S64x128 (shapeCast S1x128 v35 _) _ (ix2 p q) - broadcastTo S64x128 (shapeCast S64x1 v27 _) _ (ix2 p q) = _
  rw [bias_apply, along_cols]

theorem dy_at (v29 : FVec Ideal S64 .f32) (v37 : FVec Ideal S128 .f32) (p : Fin 64) (q : Fin 128) :
    k0_pay14 (F := Ideal) v29 v37 (ix2 p q) = v37 (ix1 q) - v29 (ix1 p) := by
  unfold k0_pay14
  show broadcastTo S64x128 (shapeCast S1x128 v37 _) _ (ix2 p q) - broadcastTo S64x128 (shapeCast S64x1 v29 _) _ (ix2 p q) = _
  rw [bias_apply, along_cols]

/-- The pair mask table: first agent's mask times second agent's. -/
theorem mask_at (v14 : FVec Ideal S64 .f32) (v25 : FVec Ideal S128 .f32) (p : Fin 64) (q : Fin 128) :
    k0_pay19 (F := Ideal) v14 v25 (ix2 p q) = v14 (ix1 p) * v25 (ix1 q) := by
  unfold k0_pay19
  show broadcastTo S64x128 (shapeCast S64x1 v14 _) _ (ix2 p q) * broadcastTo S64x128 (shapeCast S1x128 v25 _) _ (ix2 p q) = _
  rw [bias_apply, along_cols]

/-- A vector of first agents, stood up as a column and repeated along the columns. -/
theorem sin1col_at (v31 : FVec Ideal S64 .f32) (h : S64x1.Broadcasts S64x128) (p : Fin 64) (q : Fin 128) :
    broadcastTo S64x128 (k0_pay15 (F := Ideal) v31) h (ix2 p q) = v31 (ix1 p) := by
  unfold k0_pay15
  exact along_cols v31 _ h p q
theorem cos1col_at (v33 : FVec Ideal S64 .f32) (h : S64x1.Broadcasts S64x128) (p : Fin 64) (q : Fin 128) :
    broadcastTo S64x128 (k0_pay16 (F := Ideal) v33) h (ix2 p q) = v33 (ix1 p) := by
  unfold k0_pay16
  exact along_cols v33 _ h p q

/-- The second agents' heading sines (column 3 of the block), as a row repeated down the rows. -/
theorem sin2row_at (v3 : FVec Ideal S128x7 .f32) (h : S1x128.Broadcasts S64x128) (p : Fin 64) (q : Fin 128) :
    broadcastTo S64x128 (k0_pay17 (F := Ideal) v3) h (ix2 p q) = v3 (ix2 q 3) := by
  unfold k0_pay17
  exact (bias_apply _ _ h p q).trans (column_at 3 v3 _ _ q 3 rfl)
/-- The second agents' heading cosines (column 4 of the block), as a row repeated down the rows. -/
theorem cos2row_at (v3 : FVec Ideal S128x7 .f32) (h : S1x128.Broadcasts S64x128) (p : Fin 64) (q : Fin 128) :
    broadcastTo S64x128 (k0_pay18 (F := Ideal) v3) h (ix2 p q) = v3 (ix2 q 4) := by
  unfold k0_pay18
  exact (bias_apply _ _ h p q).trans (column_at 4 v3 _ _ q 4 rfl)

/-- The rotated x displacement, masked. -/
theorem dxr_at (v14 : FVec Ideal S64 .f32) (v25 : FVec Ideal S128 .f32) (v27 v29 v31 v33 : FVec Ideal S64 .f32)
    (v35 v37 : FVec Ideal S128 .f32) (p : Fin 64) (q : Fin 128) :
    k0_pay20 (F := Ideal) v14 v25 v27 v29 v31 v33 v35 v37 (ix2 p q)
      = (v33 (ix1 p) * (v35 (ix1 q) - v27 (ix1 p)) + v31 (ix1 p) * (v37 (ix1 q) - v29 (ix1 p)))
          * (v14 (ix1 p) * v25 (ix1 q)) := by
  unfold k0_pay20
  show (broadcastTo S64x128 (k0_pay16 v33) _ (ix2 p q) * k0_pay13 v27 v35 (ix2 p q)
      + broadcastTo S64x128 (k0_pay15 v31) _ (ix2 p q) * k0_pay14 v29 v37 (ix2 p q)) * k0_pay19 v14 v25 (ix2 p q) = _
  rw [cos1col_at, sin1col_at, dx_at, dy_at, mask_at]

/-- The rotated y displacement, masked; the negated sine is zero minus the sine. -/
theorem dyr_at (v14 : FVec Ideal S64 .f32) (v25 : FVec Ideal S128 .f32) (v27 v29 v31 v33 : FVec Ideal S64 .f32)
    (v35 v37 : FVec Ideal S128 .f32) (p : Fin 64) (q : Fin 128) :
    k0_pay21 (F := Ideal) v14 v25 v27 v29 v31 v33 v35 v37 (ix2 p q)
      = (-(v31 (ix1 p)) * (v35 (ix1 q) - v27 (ix1 p)) + v33 (ix1 p) * (v37 (ix1 q) - v29 (ix1 p)))
          * (v14 (ix1 p) * v25 (ix1 q)) := by
  unfold k0_pay21
  show (broadcastTo S64x128 (subf (broadcast S64x1 (Ideal.ofBits .f32 0x00000000#32)) (k0_pay15 v31)) _ (ix2 p q) * k0_pay13 v27 v35 (ix2 p q)
      + broadcastTo S64x128 (k0_pay16 v33) _ (ix2 p q) * k0_pay14 v29 v37 (ix2 p q)) * k0_pay19 v14 v25 (ix2 p q) = _
  rw [cos1col_at, dx_at, dy_at, mask_at, bcast_col]
  show ((Ideal.ofBits .f32 0x00000000#32 - k0_pay15 v31 (ix2 p (0 : Fin 1))) * _ + _) * _ = _
  have e15 : k0_pay15 (F := Ideal) v31 (ix2 p (0 : Fin 1)) = v31 (ix1 p) := by
    unfold k0_pay15; exact shapeCast_a_a1_apply v31 _ p 0
  rw [e15, Ideal.ofBits_zero_f32, zero_sub]

/-- The sine of the heading difference, masked. -/
theorem dsin_at (v3 : FVec Ideal S128x7 .f32) (v14 : FVec Ideal S64 .f32) (v25 : FVec Ideal S128 .f32)
    (v31 v33 : FVec Ideal S64 .f32) (p : Fin 64) (q : Fin 128) :
    k0_pay22 (F := Ideal) v3 v14 v25 v31 v33 (ix2 p q)
      = (v3 (ix2 q 3) * v33 (ix1 p) - v3 (ix2 q 4) * v31 (ix1 p)) * (v14 (ix1 p) * v25 (ix1 q)) := by
  unfold k0_pay22
  show (broadcastTo S64x128 (k0_pay17 v3) _ (ix2 p q) * broadcastTo S64x128 (k0_pay16 v33) _ (ix2 p q)
      - broadcastTo S64x128 (k0_pay18 v3) _ (ix2 p q) * broadcastTo S64x128 (k0_pay15 v31) _ (ix2 p q)) * k0_pay19 v14 v25 (ix2 p q) = _
  rw [sin2row_at, cos2row_at, cos1col_at, sin1col_at, mask_at]

/-- The cosine of the heading difference, masked. -/
theorem dcos_at (v3 : FVec Ideal S128x7 .f32) (v14 : FVec Ideal S64 .f32) (v25 : FVec Ideal S128 .f32)
    (v31 v33 : FVec Ideal S64 .f32) (p : Fin 64) (q : Fin 128) :
    k0_pay23 (F := Ideal) v3 v14 v25 v31 v33 (ix2 p q)
      = (v3 (ix2 q 4) * v33 (ix1 p) + v3 (ix2 q 3) * v31 (ix1 p)) * (v14 (ix1 p) * v25 (ix1 q)) := by
  unfold k0_pay23
  show (broadcastTo S64x128 (k0_pay18 v3) _ (ix2 p q) * broadcastTo S64x128 (k0_pay16 v33) _ (ix2 p q)
      + broadcastTo S64x128 (k0_pay17 v3) _ (ix2 p q) * broadcastTo S64x128 (k0_pay15 v31) _ (ix2 p q)) * k0_pay19 v14 v25 (ix2 p q) = _
  rw [sin2row_at, cos2row_at, cos1col_at, sin1col_at, mask_at]

/-- The second agents' speeds as a row repeated down the rows. -/
theorem speed_at (v38 : FVec Ideal S128x1 .f32) (p : Fin 64) (q : Fin 128) :
    k0_pay24 (F := Ideal) v38 (ix2 p q) = v38 (ix2 q (0 : Fin 1)) := by
  unfold k0_pay24
  rw [broadcastTo_1b_ab_apply, shapeCast_self, shapeCast_a_1a_apply, shapeCast_a1_a_apply]

/-- The table of tens. -/
theorem ten_at (p : Fin 64) (q : Fin 128) : k0_pay25 (F := Ideal) (ix2 p q) = ten := rfl

end Cert.PairEdge.Body

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.BodyTail.lean ====
/-
  The end of the kernel's body read at an entry: the eight per-pair tables are stacked on a last axis, the 64 x 128
  pairs are laid out as 8192 rows of eight features, the rows are multiplied into the 8 x 128 transposed weights
  (pair (p, q) is row 128 p + q, before and after), and the bias is added to every row.
-/
import proofs.«160449_j30537217474895_2_alg».proof.Proof.PairEdge
import proofs.«160449_j30537217474895_2_alg».proof.Proof.LibLayout
import proofs.«160449_j30537217474895_2_alg».proof.Proof.LibPlainDot
import proofs.«160449_j30537217474895_2_alg».proof.Proof.LibPairLayout
import proofs.«160449_j30537217474895_2_alg».proof.Proof.Gen.KernelIdeal.Skeleton
import Idealize.ShloMosaic.Lib.ValueLayout
import Idealize.ShloMosaic.PureOps.Ideal.Laws

noncomputable section

namespace Cert.PairEdge.Body

open Idealize.ShloMosaic Idealize.ShloMosaic.ValueIdx Cert.PairEdge
open Cert.KernelIdeal Cert.KernelIdeal.Gen Cert.LibLayout Cert.Lib.PairLayout Cert.PlainDot

/-- The eight features of the pair (p, q), from the body's tables: the two rotated displacements over their divisors,
    the sine and cosine tables, those two times the speed table, and the second agent's two extras. -/
def feats (v3 : FVec Ideal S128x7 .f32) (v89 v90 v91 v92 v95 v96 : FVec Ideal S64x128 .f32) (p : Fin 64) (q : Fin 128) :
    Fin 8 → EReal :=
  ![Ideal.div (v89 (ix2 p q)) (v96 (ix2 p q)), Ideal.div (v90 (ix2 p q)) ten, v91 (ix2 p q), v92 (ix2 p q),
    v95 (ix2 p q) * v91 (ix2 p q), v95 (ix2 p q) * v92 (ix2 p q), v3 (ix2 q 5), v3 (ix2 q 6)]

theorem row_lt (p : Fin 64) (q : Fin 128) : p.val * 128 + q.val < 8192 := by
  have := p.isLt; have := q.isLt; omega

/-- Entry (p, q, h) of what the body stores: the pair's features dotted with column h of the transposed weights, plus
    the bias at h. -/
theorem tail_at (v3 : FVec Ideal S128x7 .f32) (v89 v90 v91 v92 v95 v96 : FVec Ideal S64x128 .f32)
    (v116 : Vec Ideal S8x128 .f32) (v121 : Vec Ideal S128 .f32) (p : Fin 64) (q : Fin 128) (h : Fin 128) :
    k0_pay1 (F := Ideal) v3 v89 v90 v91 v92 v95 v96 v116 v121 (ix4 (0 : Fin 1) p q h)
      = (∑ e : Fin 8, feats v3 v89 v90 v91 v92 v95 v96 p q e * v116 (ix2 e h)) + v121 (ix1 h) := by
  unfold k0_pay1
  refine (shapeCast_abc_1abc_apply _ _ (0 : Fin 1) p q h).trans ?_
  refine congrArg₂ (· + ·) ?_ (bias3_apply v121 _ _ p q h)
  refine (shapeCast_mc_abc_apply _ _ (⟨p.val * 128 + q.val, row_lt p q⟩ : Fin 8192) p q h rfl).trans ?_
  refine (matmul_zero_plain_apply (M := 8192) (K := 8) (N := 128) none _ _ _ h).trans ?_
  refine Finset.sum_congr rfl fun e _ => ?_
  refine congrArg₂ (· * ·) ?_ (congrFun (shapeCast_self v116 _) (ix2 e h))
  refine (truncf_apply (φ := .f32) (ψ := .bf16) _ Facts₀.bitsLt_bf16_f32 _).trans ?_
  refine (shapeCast_abc_mc_apply _ _ (⟨p.val * 128 + q.val, row_lt p q⟩ : Fin 8192) p q e rfl).trans ?_
  match e with
  | ⟨0, _⟩ =>
    refine (concat2_left _ _ _ p q (⟨0, by omega⟩ : Fin 8) (⟨0, by omega⟩ : Fin 6) rfl).trans ?_
    refine (concat6_at _ _ _ _ _ _ _ p q _).trans ?_
    exact shapeCast_ab_ab1_apply (divf v89 v96) _ p q 0
  | ⟨1, _⟩ =>
    refine (concat2_left _ _ _ p q (⟨1, by omega⟩ : Fin 8) (⟨1, by omega⟩ : Fin 6) rfl).trans ?_
    refine (concat6_at _ _ _ _ _ _ _ p q _).trans ?_
    exact shapeCast_ab_ab1_apply (divf v90 _) _ p q 0
  | ⟨2, _⟩ =>
    refine (concat2_left _ _ _ p q (⟨2, by omega⟩ : Fin 8) (⟨2, by omega⟩ : Fin 6) rfl).trans ?_
    refine (concat6_at _ _ _ _ _ _ _ p q _).trans ?_
    exact shapeCast_ab_ab1_apply v91 _ p q 0
  | ⟨3, _⟩ =>
    refine (concat2_left _ _ _ p q (⟨3, by omega⟩ : Fin 8) (⟨3, by omega⟩ : Fin 6) rfl).trans ?_
    refine (concat6_at _ _ _ _ _ _ _ p q _).trans ?_
    exact shapeCast_ab_ab1_apply v92 _ p q 0
  | ⟨4, _⟩ =>
    refine (concat2_left _ _ _ p q (⟨4, by omega⟩ : Fin 8) (⟨4, by omega⟩ : Fin 6) rfl).trans ?_
    refine (concat6_at _ _ _ _ _ _ _ p q _).trans ?_
    exact shapeCast_ab_ab1_apply (mulf v95 v91) _ p q 0
  | ⟨5, _⟩ =>
    refine (concat2_left _ _ _ p q (⟨5, by omega⟩ : Fin 8) (⟨5, by omega⟩ : Fin 6) rfl).trans ?_
    refine (concat6_at _ _ _ _ _ _ _ p q _).trans ?_
    exact shapeCast_ab_ab1_apply (mulf v95 v92) _ p q 0
  | ⟨6, _⟩ =>
    refine (concat2_right _ _ _ p q (⟨6, by omega⟩ : Fin 8) (⟨0, by omega⟩ : Fin 2) rfl).trans ?_
    refine (broadcastTo_1bc_abc_apply _ _ p q _).trans ?_
    refine (congrFun (shapeCast_self _ _) _).trans ?_
    refine (shapeCast_ab_1ab_apply _ _ (0 : Fin 1) q _).trans ?_
    exact slice2_axis1_apply 5 v3 _ q _ (5 : Fin 7) rfl
  | ⟨7, _⟩ =>
    refine (concat2_right _ _ _ p q (⟨7, by omega⟩ : Fin 8) (⟨1, by omega⟩ : Fin 2) rfl).trans ?_
    refine (broadcastTo_1bc_abc_apply _ _ p q _).trans ?_
    refine (congrFun (shapeCast_self _ _) _).trans ?_
    refine (shapeCast_ab_1ab_apply _ _ (0 : Fin 1) q _).trans ?_
    exact slice2_axis1_apply 5 v3 _ q _ (6 : Fin 7) rfl

end Cert.PairEdge.Body

end
-- ==== Proof.Body.lean ====
/-
  What the kernel's body leaves in its output block, entry by entry.

  At a grid point the body holds a block of 64 first agents, a block of 128 second agents, the transposed weight
  matrix (8 rows of 128) and the bias. Entry (p, q, h) of the output block is the edge from first agent p to second
  agent q, dotted with column h of the transposed weights, plus the bias at h.
-/
import proofs.«160449_j30537217474895_2_alg».proof.Proof.PairEdge
import proofs.«160449_j30537217474895_2_alg».proof.Proof.MaskKernel
import proofs.«160449_j30537217474895_2_alg».proof.Proof.BodyTables
import proofs.«160449_j30537217474895_2_alg».proof.Proof.BodyTail
import proofs.«160449_j30537217474895_2_alg».proof.Proof.Gen.KernelIdeal.Frame

noncomputable section

namespace Cert.PairEdge.Body

open Idealize.ShloMosaic Idealize.ShloMosaic.ValueIdx Cert.PairEdge
open Cert.KernelIdeal Cert.KernelIdeal.Gen Cert.PairEdge.MaskKernel

/-- The body's eight features of the pair (p, q), computed from the two blocks, are the edge from first agent p to
    second agent q. -/
theorem feats_eq_edge (x0 : Vec Ideal S1x64x7 .f32) (x1 : Vec Ideal S1x128x7 .f32) (p : Fin 64) (q : Fin 128) (e : Fin 8) :
    feats (k0_pay3 x1)
        (k0_pay20 (k0_pay4 x0) (k0_pay5 x1) (k0_pay6 x0) (k0_pay7 x0) (k0_pay8 x0) (k0_pay9 x0) (k0_pay10 x1) (k0_pay11 x1))
        (k0_pay21 (k0_pay4 x0) (k0_pay5 x1) (k0_pay6 x0) (k0_pay7 x0) (k0_pay8 x0) (k0_pay9 x0) (k0_pay10 x1) (k0_pay11 x1))
        (k0_pay22 (k0_pay3 x1) (k0_pay4 x0) (k0_pay5 x1) (k0_pay8 x0) (k0_pay9 x0))
        (k0_pay23 (k0_pay3 x1) (k0_pay4 x0) (k0_pay5 x1) (k0_pay8 x0) (k0_pay9 x0))
        (k0_pay24 (k0_pay12 x1)) (k0_pay25 (F := Ideal)) p q e
      = edge (fun k => x0 (ix3 (0 : Fin 1) p k)) (fun k => x1 (ix3 (0 : Fin 1) q k)) e := by
  have hdxr := dxr_at (k0_pay4 x0) (k0_pay5 x1) (k0_pay6 x0) (k0_pay7 x0) (k0_pay8 x0) (k0_pay9 x0) (k0_pay10 x1) (k0_pay11 x1) p q
  have hdyr := dyr_at (k0_pay4 x0) (k0_pay5 x1) (k0_pay6 x0) (k0_pay7 x0) (k0_pay8 x0) (k0_pay9 x0) (k0_pay10 x1) (k0_pay11 x1) p q
  have hds := dsin_at (k0_pay3 x1) (k0_pay4 x0) (k0_pay5 x1) (k0_pay8 x0) (k0_pay9 x0) p q
  have hdc := dcos_at (k0_pay3 x1) (k0_pay4 x0) (k0_pay5 x1) (k0_pay8 x0) (k0_pay9 x0) p q
  have hv := (speed_at (k0_pay12 x1) p q).trans (speed2_at x1 q 0)
  rw [kernel_valid1, kernel_valid2, x1_at, y1_at, sin1_at, cos1_at, x2_at, y2_at] at hdxr hdyr
  rw [kernel_valid1, kernel_valid2, sin1_at, cos1_at, rows2_at, rows2_at] at hds hdc
  match e with
  | ⟨0, _⟩ => exact congrArg₂ Ideal.div hdxr (ten_at p q)
  | ⟨1, _⟩ => exact congrArg (Ideal.div · ten) hdyr
  | ⟨2, _⟩ => exact hds
  | ⟨3, _⟩ => exact hdc
  | ⟨4, _⟩ => exact congrArg₂ (· * ·) hv hds
  | ⟨5, _⟩ => exact congrArg₂ (· * ·) hv hdc
  | ⟨6, _⟩ => exact rows2_at x1 q 5
  | ⟨7, _⟩ => exact rows2_at x1 q 6

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Entry (p, q, h) of the output block after the body. -/
theorem body_at (x0 : Vec Ideal Cert.KernelIdeal.S1x64x7 .f32) (x1 : Vec Ideal Cert.KernelIdeal.S1x128x7 .f32)
    (x2 : Vec Ideal Cert.KernelIdeal.S8x128 .f32) (x3 : Vec Ideal Cert.KernelIdeal.S128 .f32)
    (p : Fin 64) (q : Fin 128) (h : Fin 128) :
    Cert.KernelIdeal.Gen.out0_4 (F := Ideal) x0 x1 x2 x3 (ix4 (0 : Fin 1) p q h)
      = (∑ e : Fin 8, edge (fun k => x0 (ix3 (0 : Fin 1) p k)) (fun k => x1 (ix3 (0 : Fin 1) q k)) e * x2 (ix2 e h))
        + x3 (ix1 h) := by
  unfold out0_4
  rw [View.canon_unit_zero hz4]
  simp only [View.ld_unit_zero (S := S1x64x7) hz3, View.ld_unit_zero (S := S1x128x7) hz3,
    View.ld_unit_zero (S := S8x128) hz2, View.ld_unit_zero (S := S128) hz1]
  rw [tail_at]
  refine congrArg (· + x3 (ix1 h)) (Finset.sum_congr rfl fun e _ => ?_)
  rw [feats_eq_edge]

end Cert.PairEdge.Body

end
-- ==== Proof.KernelOut.lean ====
/-
  The kernel's output array after the run, as one function of the argument arrays.

  The grid has 8 x 4 x 2 points; point (g, i, j) holds first agents 64 i .. 64 i + 63 and second agents
  128 j .. 128 j + 127 of scene g, and writes the output block at scene g, rows 64 i .., columns 128 j .., all 128
  channels. The blocks tile the output, the weight matrix is transposed on the way in, and every block is the
  restriction of the one function `PairEdge.out` of the argument arrays.
-/
import proofs.«160449_j30537217474895_2_alg».proof.Proof.PairEdge
import proofs.«160449_j30537217474895_2_alg».proof.Proof.Body
import proofs.«160449_j30537217474895_2_alg».proof.Proof.Gen.KernelIdeal.Value
import Idealize.ShloMosaic.Lib.ValueLayout
import Idealize.ShloMosaic.Lib.StableHlo.Run

set_option maxRecDepth 16384

noncomputable section

namespace Cert.PairEdge.KernelOut

open Idealize.ShloMosaic Idealize.ShloMosaic.TcCoe Idealize.SL.Sem Idealize.ShloMosaic.ValueIdx
open Idealize.ShloMosaic.Pipeline (Dat)
open Cert.KernelIdeal Cert.KernelIdeal.Gen Cert.PairEdge

variable (m : (ℓ : Loc nD τ sig) → Buf (Elt Ideal) ℓ) (ρ : Dev nD → PrngReg)

/-- The region finds the weight matrix transposed. -/
theorem wt_eq (c : Dev nD) :
    (V m c main_v0 : S8x128.Idx → EReal)
      = transpose S8x128 [1, 0] (m ((c : Thread nD τ).loc main_arg2)) transposes_S128x8_S8x128_1_0 := by
  dsimp only [Gen.V, Gen.hostOps0]
  after_results

/-- The index maps over the grid: the first agents' block follows the output's scene and row block, the second agents'
    block its scene and column block, the weights, the bias and the output's channel axis do not move. -/
theorem idx_facts : ∀ t : Fin cfg0.N,
    win0_0.index t (0 : Fin 3) = win0_4.index t (0 : Fin 4)
    ∧ win0_0.index t (1 : Fin 3) = win0_4.index t (1 : Fin 4)
    ∧ win0_0.index t (2 : Fin 3) = 0
    ∧ win0_1.index t (0 : Fin 3) = win0_4.index t (0 : Fin 4)
    ∧ win0_1.index t (1 : Fin 3) = win0_4.index t (2 : Fin 4)
    ∧ win0_1.index t (2 : Fin 3) = 0
    ∧ win0_2.index t (0 : Fin 2) = 0
    ∧ win0_2.index t (1 : Fin 2) = 0
    ∧ win0_3.index t (0 : Fin 1) = 0
    ∧ win0_4.index t (3 : Fin 4) = 0
    ∧ win0_4.index t (0 : Fin 4) ≤ 7
    ∧ win0_4.index t (1 : Fin 4) ≤ 3
    ∧ win0_4.index t (2 : Fin 4) ≤ 1 :=
  (by decide +kernel : ∀ t : Fin grid0.N, _)

/-- Every block of the output is some grid point's. -/
theorem idx_onto : ∀ (g : Fin 8) (i : Fin 4) (j : Fin 2), ∃ t : Fin cfg0.N, win0_4.index t = ![g.val, i.val, j.val, 0] :=
  (by decide +kernel : ∀ (g : Fin 8) (i : Fin 4) (j : Fin 2), ∃ t : Fin grid0.N, win0_4.index t = ![g.val, i.val, j.val, 0])

/-- What grid point t writes back is block t of `PairEdge.out` of the argument arrays. -/
theorem flushed_eq (c : Dev nD) (t : Fin cfg0.N) :
    (dats m 0 c).flushed 4 t = ((cfg0.win 4).blk t).view.read (Elt Ideal)
      (PairEdge.out (m ((c : Thread nD τ).loc main_arg0)) (m ((c : Thread nD τ).loc main_arg1))
        (m ((c : Thread nD τ).loc main_arg2)) (m ((c : Thread nD τ).loc main_arg3))) := by
  rw [Cert.KernelIdeal.Value.flushed4]
  obtain ⟨e00, e01, e02, e10, e11, e12, e20, e21, e30, e43, b0, b1, b2⟩ := idx_facts t
  funext y
  obtain ⟨u, p, q, h, rfl⟩ : ∃ (u : Fin 1) (p : Fin 64) (q : Fin 128) (h : Fin 128), y = ix4 u p q h :=
    ⟨y 0, y 1, y 2, y 3, eq_ix4 y⟩
  obtain rfl : u = 0 := Subsingleton.elim _ _
  show out0_4 (iblk m c 0 t) (iblk m c 1 t) (iblk m c 2 t) (iblk m c 3 t) (ix4 (0 : Fin 1) p q h)
    = PairEdge.out _ _ _ _ (((cfg0.win 4).blk t).view.emb (ix4 (0 : Fin 1) p q h))
  rw [Body.body_at (iblk m c 0 t) (iblk m c 1 t) (iblk m c 2 t) (iblk m c 3 t) p q h]
  have hG : win0_4.index t (0 : Fin 4) < 8 := by omega
  have hR : win0_4.index t (1 : Fin 4) * 64 + p.val < 256 := by have := p.isLt; omega
  have hC : win0_4.index t (2 : Fin 4) * 128 + q.val < 256 := by have := q.isLt; omega
  have e4 : ((cfg0.win 4).blk t).view.emb (ix4 (0 : Fin 1) p q h)
      = ix4 (⟨win0_4.index t (0 : Fin 4), hG⟩ : Fin 8) (⟨win0_4.index t (1 : Fin 4) * 64 + p.val, hR⟩ : Fin 256)
          (⟨win0_4.index t (2 : Fin 4) * 128 + q.val, hC⟩ : Fin 256) h := by
    funext a; apply Fin.ext
    match a with
    | ⟨0, _⟩ => show win0_4.index t (0 : Fin 4) * 1 + 1 * 0 = win0_4.index t (0 : Fin 4); omega
    | ⟨1, _⟩ => show win0_4.index t (1 : Fin 4) * 64 + 1 * p.val = win0_4.index t (1 : Fin 4) * 64 + p.val; omega
    | ⟨2, _⟩ => show win0_4.index t (2 : Fin 4) * 128 + 1 * q.val = win0_4.index t (2 : Fin 4) * 128 + q.val; omega
    | ⟨3, _⟩ => show win0_4.index t (3 : Fin 4) * 128 + 1 * h.val = h.val; omega
  rw [e4, PairEdge.out_ix4]
  unfold PairEdge.outAt
  have hA1 : ∀ k : Fin 7, iblk m c 0 t (ix3 (0 : Fin 1) p k)
      = m ((c : Thread nD τ).loc main_arg0) (ix3 (⟨win0_4.index t (0 : Fin 4), hG⟩ : Fin 8)
          (⟨win0_4.index t (1 : Fin 4) * 64 + p.val, hR⟩ : Fin 256) k) := fun k => by
    show V m c main_arg0 (((cfg0.win 0).blk t).view.emb (ix3 (0 : Fin 1) p k)) = _
    rw [V_main_arg0]
    refine congrArg _ (funext fun a => Fin.ext ?_)
    match a with
    | ⟨0, _⟩ => show win0_0.index t (0 : Fin 3) * 1 + 1 * 0 = win0_4.index t (0 : Fin 4); omega
    | ⟨1, _⟩ => show win0_0.index t (1 : Fin 3) * 64 + 1 * p.val = win0_4.index t (1 : Fin 4) * 64 + p.val; omega
    | ⟨2, _⟩ => show win0_0.index t (2 : Fin 3) * 7 + 1 * k.val = k.val; omega
  have hA2 : ∀ k : Fin 7, iblk m c 1 t (ix3 (0 : Fin 1) q k)
      = m ((c : Thread nD τ).loc main_arg1) (ix3 (⟨win0_4.index t (0 : Fin 4), hG⟩ : Fin 8)
          (⟨win0_4.index t (2 : Fin 4) * 128 + q.val, hC⟩ : Fin 256) k) := fun k => by
    show V m c main_arg1 (((cfg0.win 1).blk t).view.emb (ix3 (0 : Fin 1) q k)) = _
    rw [V_main_arg1]
    refine congrArg _ (funext fun a => Fin.ext ?_)
    match a with
    | ⟨0, _⟩ => show win0_1.index t (0 : Fin 3) * 1 + 1 * 0 = win0_4.index t (0 : Fin 4); omega
    | ⟨1, _⟩ => show win0_1.index t (1 : Fin 3) * 128 + 1 * q.val = win0_4.index t (2 : Fin 4) * 128 + q.val; omega
    | ⟨2, _⟩ => show win0_1.index t (2 : Fin 3) * 7 + 1 * k.val = k.val; omega
  have hW : ∀ e : Fin 8, iblk m c 2 t (ix2 e h) = m ((c : Thread nD τ).loc main_arg2) (ix2 h e) := fun e => by
    show V m c main_v0 (((cfg0.win 2).blk t).view.emb (ix2 e h)) = _
    have e2 : ((cfg0.win 2).blk t).view.emb (ix2 e h) = ix2 e h := by
      funext a; apply Fin.ext
      match a with
      | ⟨0, _⟩ => show win0_2.index t (0 : Fin 2) * 8 + 1 * e.val = e.val; omega
      | ⟨1, _⟩ => show win0_2.index t (1 : Fin 2) * 128 + 1 * h.val = h.val; omega
    rw [e2, wt_eq]
    exact transpose_ix2_apply _ _ e h
  have hB : iblk m c 3 t (ix1 h) = m ((c : Thread nD τ).loc main_arg3) (ix1 h) := by
    show V m c main_arg3 (((cfg0.win 3).blk t).view.emb (ix1 h)) = _
    rw [V_main_arg3]
    refine congrArg _ (funext fun a => Fin.ext ?_)
    match a with
    | ⟨0, _⟩ => show win0_3.index t (0 : Fin 1) * 128 + 1 * h.val = h.val; omega
  simp only [hA1, hA2, hW, hB]

/-- An index of the output is in grid point t's block iff each coordinate is in the block's range on its axis. -/
theorem mem_blk (t : Fin cfg0.N) (i : S8x256x256x128.Idx) :
    i ∈ ((cfg0.win 4).blk t).view.set ↔ ∀ a : Fin 4, win0_4.index t a * S1x64x128x128.size a ≤ (i a).val
      ∧ (i a).val < win0_4.index t a * S1x64x128x128.size a + S1x64x128x128.size a := by
  show i ∈ ((View.whole main_v1).slice (win0_4.rect t)).set ↔ _
  rw [View.set_slice_whole, Rect.mem_set_unit]
  exact Iff.rfl

/-- The blocks tile the output: index (g, r, c, h) is in the block of the point with scene g, row block r / 64 and
    column block c / 128. -/
theorem cover (i : S8x256x256x128.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 256 := (i 2).isLt
  have hi3 : (i 3).val < 128 := (i 3).isLt
  obtain ⟨t, ht⟩ := idx_onto ⟨(i 0).val, hi0⟩ ⟨(i 1).val / 64, by omega⟩ ⟨(i 2).val / 128, by omega⟩
  have q0 : win0_4.index t (0 : Fin 4) = (i 0).val := congrFun ht 0
  have q1 : win0_4.index t (1 : Fin 4) = (i 1).val / 64 := congrFun ht 1
  have q2 : win0_4.index t (2 : Fin 4) = (i 2).val / 128 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- The output array after the run. -/
theorem final (c : Dev nD) :
    (dats m 0 c).arrAt 4 cfg0.N
      = PairEdge.out (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) cover

/-- Every weakly fair execution of the idealized kernel ends with its result array at `PairEdge.out` of the argument
    arrays, and the argument arrays unchanged. -/
theorem kernel_run :
    θ_run defs (onTc (τ := τ) (main (F := Ideal))) ⟨m, fun _ => 0, ρ⟩ fun r => ∀ c : Dev nD,
      r.2.mem ((c : Thread nD τ).loc main_v1)
        = PairEdge.out (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.PairEdge.KernelOut

end
-- ==== Proof.MaskRefLaw.lean ====
/-
  The validity mask as the reference computes it, and why it equals the specification's mask.

  Each entry of a row of seven is compared with zero, the seven bits are folded by "and" from a one, the result is
  negated and read as an unsigned integer. The fold is one exactly when every entry is zero; so the result is zero for
  an all-zero row and one for any other row.
-/
import Idealize.ShloMosaic.PureOps.Ideal.Laws
import Idealize.ShloMosaic.Lib.Affine
import proofs.«160449_j30537217474895_2_alg».proof.Proof.PairEdge

noncomputable section

namespace Cert.PairEdge.MaskRefLaw

open Idealize.ShloMosaic Idealize.ShloMosaic.ValueIdx Cert.PairEdge

/-- A fold of "and" from a one over a set of bits is one exactly when every bit of the set is one. -/
theorem fold_andi_eq_one_iff {ι : Type} [DecidableEq ι] (b : ι → BitVec 1) (S : Finset ι) :
    S.fold IntOp.andi 1#1 b = 1#1 ↔ ∀ k ∈ S, b k = 1#1 := by
  induction S using Finset.induction_on with
  | empty => simp
  | insert a S ha ih =>
    rw [Finset.fold_insert ha, IntOp.andi_eq_one, ih]
    simp [Finset.forall_mem_insert]

/-- The comparison with zero is the bit one exactly at a zero entry. -/
theorem cmp_oeq_zero_eq_one (x : EReal) : Ideal.cmp .oeq x 0 = 1#1 ↔ x = 0 := by
  unfold Ideal.cmp
  by_cases h : x = 0
  · simp [h]
  · simp [h]

/-- The negated fold, read as an unsigned integer, is the specification's mask of the row. -/
theorem word_eq_valid (f : Fin 7 → EReal) :
    (((~~~((Finset.univ : Finset (Fin 7)).fold IntOp.andi 1#1 (fun k => Ideal.cmp .oeq (f k) 0))).toNat : ℝ) : EReal)
      = valid f := by
  unfold valid
  by_cases h : ∀ k, f k = 0
  · have e : (Finset.univ : Finset (Fin 7)).fold IntOp.andi 1#1 (fun k => Ideal.cmp .oeq (f k) 0) = 1#1 :=
      (fold_andi_eq_one_iff _ _).2 fun k _ => (cmp_oeq_zero_eq_one _).2 (h k)
    rw [e, if_pos h]; simp
  · have e : (Finset.univ : Finset (Fin 7)).fold IntOp.andi 1#1 (fun k => Ideal.cmp .oeq (f k) 0) = 0#1 :=
      eq_zero_of_ne_one fun e => h fun k => (cmp_oeq_zero_eq_one _).1 ((fold_andi_eq_one_iff _ _).1 e k (Finset.mem_univ k))
    rw [e, if_neg h]; simp

/-- The index a reduction over the third axis inserts: scene g, row r, entry k. -/
theorem lift_ix2 (h : (⟨3, ![8, 256, 7]⟩ : Shape).Reduces [2] ⟨2, ![8, 256]⟩) (g : Fin 8) (r : Fin 256) (k : Fin 7) :
    h.lift (ix2 g r) k = ix3 g r k := by
  funext c
  fin_cases c
  · exact Fin.ext rfl
  · exact Fin.ext rfl
  · exact Fin.ext rfl

/-- The reference's chain over an array of rows of seven, read at scene g and row r: given that the compared bits of
    that row are the comparisons of the row's entries with zero and that the fold starts from a one. -/
theorem ref_chain (x : (⟨3, ![8, 256, 7]⟩ : Shape).Idx → EReal) (c : (⟨3, ![8, 256, 7]⟩ : Shape).Idx → BitVec 1)
    (init : (⟨0, ![]⟩ : Shape).Idx → BitVec 1) (h' : (⟨3, ![8, 256, 7]⟩ : Shape).ReducesTo [2] ⟨2, ![8, 256]⟩)
    (hu : 0 < (⟨0, ![]⟩ : Shape).numel) (g : Fin 8) (r : Fin 256)
    (hc : ∀ k, c (ix3 g r k) = Ideal.cmp .oeq (x (ix3 g r k)) 0) (hinit : ∀ i, init i = 1#1) :
    (((~~~(Host.reduce IntOp.andi c init h' hu (ix2 g r))).toNat : ℝ) : EReal) = valid (fun k => x (ix3 g r k)) := by
  have h : (⟨3, ![8, 256, 7]⟩ : Shape).Reduces [2] ⟨2, ![8, 256]⟩ := by decide
  rw [Host.reduce_eq_fold_single IntOp.andi c init h' h hu (ix2 g r), hinit]
  refine Eq.trans ?_ (word_eq_valid (fun k => x (ix3 g r k)))
  refine congrArg (fun b : Fin 7 → BitVec 1 =>
    (((~~~((Finset.univ : Finset (Fin 7)).fold IntOp.andi 1#1 b)).toNat : ℝ) : EReal)) ?_
  funext k
  exact (congrArg c (lift_ix2 h g r k)).trans (hc k)

end Cert.PairEdge.MaskRefLaw

end
-- ==== Proof.MaskRef.lean ====
/-
  The validity masks of the reference: for each scene and agent, zero if the agent's seven numbers are all zero and
  one otherwise, as the specification has it.
-/
import proofs.«160449_j30537217474895_2_alg».proof.Proof.PairEdge
import proofs.«160449_j30537217474895_2_alg».proof.Proof.MaskRefLaw
import proofs.«160449_j30537217474895_2_alg».proof.Proof.RefReadP

noncomputable section

namespace Cert.PairEdge.MaskRef

open Idealize.ShloMosaic Idealize.ShloMosaic.ValueIdx Cert.PairEdge Cert.PairEdge.MaskRefLaw

/-- The reference's mask of agent r of scene g among the first agents. -/
theorem ref_valid1 (x0 : (⟨Cert.ReferenceIdeal.S8x256x7, .f32⟩ : BufTy).Contents (Elt Ideal)) (g : Fin 8) (r : Fin 256) :
    Cert.ReferenceIdeal.ReadP.val_main_v4 (F := Ideal) x0 (ix2 g r) = valid (fun k => x0 (ix3 g r k)) := by
  refine ref_chain x0 (Cert.ReferenceIdeal.ReadP.val_main_v1 (F := Ideal) x0) (Cert.ReferenceIdeal.ReadP.val_main_c (F := Ideal))
    Cert.ReferenceIdeal.Facts₀.reducesTo_S8x256x7_S8x256_d2 Cert.ReferenceIdeal.Facts₀.h_S_ g r (fun k => ?_) (fun _ => rfl)
  rw [Cert.ReferenceIdeal.ReadP.val_main_v1_apply, Cert.ReferenceIdeal.ReadP.val_main_v0_apply, Cert.ReferenceIdeal.ReadP.val_main_cst_apply]
  exact congrArg (Ideal.cmp .oeq (x0 (ix3 g r k))) Ideal.ofBits_zero_f32

/-- The reference's mask of agent c of scene g among the second agents. -/
theorem ref_valid2 (x1 : (⟨Cert.ReferenceIdeal.S8x256x7, .f32⟩ : BufTy).Contents (Elt Ideal)) (g : Fin 8) (c : Fin 256) :
    Cert.ReferenceIdeal.ReadP.val_main_v9 (F := Ideal) x1 (ix2 g c) = valid (fun k => x1 (ix3 g c k)) := by
  refine ref_chain x1 (Cert.ReferenceIdeal.ReadP.val_main_v6 (F := Ideal) x1) (Cert.ReferenceIdeal.ReadP.val_main_c_1 (F := Ideal))
    Cert.ReferenceIdeal.Facts₀.reducesTo_S8x256x7_S8x256_d2 Cert.ReferenceIdeal.Facts₀.h_S_ g c (fun k => ?_) (fun _ => rfl)
  rw [Cert.ReferenceIdeal.ReadP.val_main_v6_apply, Cert.ReferenceIdeal.ReadP.val_main_v5_apply, Cert.ReferenceIdeal.ReadP.val_main_cst_0_apply]
  exact congrArg (Ideal.cmp .oeq (x1 (ix3 g c k))) Ideal.ofBits_zero_f32

end Cert.PairEdge.MaskRef

end
-- ==== Proof.RefStageCols.lean ====
/-
  The reference program's broadcast tables, read at one pair.

  The reference cuts one number out of every agent's row (a slice of width one on the last axis, then a reshape
  that drops the unit axis) and repeats it over a full [8, 256, 256] table: a number of the first agent along the
  columns, a number of the second agent along the rows. Read at the pair (g, r, c), a table of the first agent is
  that number of agent r of scene g, and a table of the second agent is that number of agent c of scene g.
-/
import proofs.«160449_j30537217474895_2_alg».proof.Proof.PairEdge
import proofs.«160449_j30537217474895_2_alg».proof.Proof.RefReadP

noncomputable section

namespace Cert.PairEdge.RefStage

open Idealize.ShloMosaic Idealize.ShloMosaic.ValueIdx Cert.PairEdge Cert.ReferenceIdeal Cert.ReferenceIdeal.ReadP

/-- The type of an array of agents: eight scenes, 256 agents, seven numbers each. -/
abbrev A3 := (⟨Cert.ReferenceIdeal.S8x256x7, .f32⟩ : BufTy).Contents (Elt Ideal)

/-- The table of the first agent's x: at (g, r, c) it is number 0 of first agent r. -/
theorem v17_at (x0 : A3) (g : Fin 8) (r c : Fin 256) :
    val_main_v17 (F := Ideal) x0 (ix3 g r c) = x0 (ix3 g r 0) := by
  rw [val_main_v17_apply, val_main_v15_apply, val_main_v14_apply, val_main_v10_apply]
  refine congrArg x0 (funext fun a => ?_)
  match a with
  | ⟨0, _⟩ => exact Fin.ext (by have := r.isLt; show ((g.val * 256 + r.val) * 1 + 0) / 256 = g.val; omega)
  | ⟨1, _⟩ => exact Fin.ext (by have := r.isLt; show ((g.val * 256 + r.val) * 1 + 0) / 1 % 256 = r.val; omega)
  | ⟨2, _⟩ => rfl

/-- The table of the first agent's y: at (g, r, c) it is number 1 of first agent r. -/
theorem v24_at (x0 : A3) (g : Fin 8) (r c : Fin 256) :
    val_main_v24 (F := Ideal) x0 (ix3 g r c) = x0 (ix3 g r 1) := by
  rw [val_main_v24_apply, val_main_v22_apply, val_main_v21_apply, val_main_v10_apply]
  refine congrArg x0 (funext fun a => ?_)
  match a with
  | ⟨0, _⟩ => exact Fin.ext (by have := r.isLt; show ((g.val * 256 + r.val) * 1 + 0) / 256 = g.val; omega)
  | ⟨1, _⟩ => exact Fin.ext (by have := r.isLt; show ((g.val * 256 + r.val) * 1 + 0) / 1 % 256 = r.val; omega)
  | ⟨2, _⟩ => rfl

/-- The table of the first agent's sine: at (g, r, c) it is number 3 of first agent r. -/
theorem v36_at (x0 : A3) (g : Fin 8) (r c : Fin 256) :
    val_main_v36 (F := Ideal) x0 (ix3 g r c) = x0 (ix3 g r 3) := by
  rw [val_main_v36_apply, val_main_v27_apply, val_main_v26_apply, val_main_v10_apply]
  refine congrArg x0 (funext fun a => ?_)
  match a with
  | ⟨0, _⟩ => exact Fin.ext (by have := r.isLt; show ((g.val * 256 + r.val) * 1 + 0) / 256 = g.val; omega)
  | ⟨1, _⟩ => exact Fin.ext (by have := r.isLt; show ((g.val * 256 + r.val) * 1 + 0) / 1 % 256 = r.val; omega)
  | ⟨2, _⟩ => rfl

/-- The table of the first agent's sine: at (g, r, c) it is number 3 of first agent r. -/
theorem v49_at (x0 : A3) (g : Fin 8) (r c : Fin 256) :
    val_main_v49 (F := Ideal) x0 (ix3 g r c) = x0 (ix3 g r 3) := by
  rw [val_main_v49_apply, val_main_v27_apply, val_main_v26_apply, val_main_v10_apply]
  refine congrArg x0 (funext fun a => ?_)
  match a with
  | ⟨0, _⟩ => exact Fin.ext (by have := r.isLt; show ((g.val * 256 + r.val) * 1 + 0) / 256 = g.val; omega)
  | ⟨1, _⟩ => exact Fin.ext (by have := r.isLt; show ((g.val * 256 + r.val) * 1 + 0) / 1 % 256 = r.val; omega)
  | ⟨2, _⟩ => rfl

/-- The table of the first agent's sine: at (g, r, c) it is number 3 of first agent r. -/
theorem v56_at (x0 : A3) (g : Fin 8) (r c : Fin 256) :
    val_main_v56 (F := Ideal) x0 (ix3 g r c) = x0 (ix3 g r 3) := by
  rw [val_main_v56_apply, val_main_v27_apply, val_main_v26_apply, val_main_v10_apply]
  refine congrArg x0 (funext fun a => ?_)
  match a with
  | ⟨0, _⟩ => exact Fin.ext (by have := r.isLt; show ((g.val * 256 + r.val) * 1 + 0) / 256 = g.val; omega)
  | ⟨1, _⟩ => exact Fin.ext (by have := r.isLt; show ((g.val * 256 + r.val) * 1 + 0) / 1 % 256 = r.val; omega)
  | ⟨2, _⟩ => rfl

/-- The table of the first agent's cosine: at (g, r, c) it is number 4 of first agent r. -/
theorem v34_at (x0 : A3) (g : Fin 8) (r c : Fin 256) :
    val_main_v34 (F := Ideal) x0 (ix3 g r c) = x0 (ix3 g r 4) := by
  rw [val_main_v34_apply, val_main_v29_apply, val_main_v28_apply, val_main_v10_apply]
  refine congrArg x0 (funext fun a => ?_)
  match a with
  | ⟨0, _⟩ => exact Fin.ext (by have := r.isLt; show ((g.val * 256 + r.val) * 1 + 0) / 256 = g.val; omega)
  | ⟨1, _⟩ => exact Fin.ext (by have := r.isLt; show ((g.val * 256 + r.val) * 1 + 0) / 1 % 256 = r.val; omega)
  | ⟨2, _⟩ => rfl

/-- The table of the first agent's cosine: at (g, r, c) it is number 4 of first agent r. -/
theorem v42_at (x0 : A3) (g : Fin 8) (r c : Fin 256) :
    val_main_v42 (F := Ideal) x0 (ix3 g r c) = x0 (ix3 g r 4) := by
  rw [val_main_v42_apply, val_main_v29_apply, val_main_v28_apply, val_main_v10_apply]
  refine congrArg x0 (funext fun a => ?_)
  match a with
  | ⟨0, _⟩ => exact Fin.ext (by have := r.isLt; show ((g.val * 256 + r.val) * 1 + 0) / 256 = g.val; omega)
  | ⟨1, _⟩ => exact Fin.ext (by have := r.isLt; show ((g.val * 256 + r.val) * 1 + 0) / 1 % 256 = r.val; omega)
  | ⟨2, _⟩ => rfl

/-- The table of the first agent's cosine: at (g, r, c) it is number 4 of first agent r. -/
theorem v46_at (x0 : A3) (g : Fin 8) (r c : Fin 256) :
    val_main_v46 (F := Ideal) x0 (ix3 g r c) = x0 (ix3 g r 4) := by
  rw [val_main_v46_apply, val_main_v29_apply, val_main_v28_apply, val_main_v10_apply]
  refine congrArg x0 (funext fun a => ?_)
  match a with
  | ⟨0, _⟩ => exact Fin.ext (by have := r.isLt; show ((g.val * 256 + r.val) * 1 + 0) / 256 = g.val; omega)
  | ⟨1, _⟩ => exact Fin.ext (by have := r.isLt; show ((g.val * 256 + r.val) * 1 + 0) / 1 % 256 = r.val; omega)
  | ⟨2, _⟩ => rfl

/-- The table of the first agent's cosine: at (g, r, c) it is number 4 of first agent r. -/
theorem v53_at (x0 : A3) (g : Fin 8) (r c : Fin 256) :
    val_main_v53 (F := Ideal) x0 (ix3 g r c) = x0 (ix3 g r 4) := by
  rw [val_main_v53_apply, val_main_v29_apply, val_main_v28_apply, val_main_v10_apply]
  refine congrArg x0 (funext fun a => ?_)
  match a with
  | ⟨0, _⟩ => exact Fin.ext (by have := r.isLt; show ((g.val * 256 + r.val) * 1 + 0) / 256 = g.val; omega)
  | ⟨1, _⟩ => exact Fin.ext (by have := r.isLt; show ((g.val * 256 + r.val) * 1 + 0) / 1 % 256 = r.val; omega)
  | ⟨2, _⟩ => rfl

/-- The table of the second agent's x: at (g, r, c) it is number 0 of second agent c. -/
theorem v16_at (x1 : A3) (g : Fin 8) (r c : Fin 256) :
    val_main_v16 (F := Ideal) x1 (ix3 g r c) = x1 (ix3 g c 0) := by
  rw [val_main_v16_apply, val_main_v13_apply, val_main_v12_apply, val_main_v11_apply]
  refine congrArg x1 (funext fun a => ?_)
  match a with
  | ⟨0, _⟩ => exact Fin.ext (by have := c.isLt; show ((g.val * 1 + 0) * 256 + c.val) / 256 = g.val; omega)
  | ⟨1, _⟩ => exact Fin.ext (by have := c.isLt; show ((g.val * 1 + 0) * 256 + c.val) / 1 % 256 = c.val; omega)
  | ⟨2, _⟩ => rfl

/-- The table of the second agent's y: at (g, r, c) it is number 1 of second agent c. -/
theorem v23_at (x1 : A3) (g : Fin 8) (r c : Fin 256) :
    val_main_v23 (F := Ideal) x1 (ix3 g r c) = x1 (ix3 g c 1) := by
  rw [val_main_v23_apply, val_main_v20_apply, val_main_v19_apply, val_main_v11_apply]
  refine congrArg x1 (funext fun a => ?_)
  match a with
  | ⟨0, _⟩ => exact Fin.ext (by have := c.isLt; show ((g.val * 1 + 0) * 256 + c.val) / 256 = g.val; omega)
  | ⟨1, _⟩ => exact Fin.ext (by have := c.isLt; show ((g.val * 1 + 0) * 256 + c.val) / 1 % 256 = c.val; omega)
  | ⟨2, _⟩ => rfl

/-- The table of the second agent's sine: at (g, r, c) it is number 3 of second agent c. -/
theorem v45_at (x1 : A3) (g : Fin 8) (r c : Fin 256) :
    val_main_v45 (F := Ideal) x1 (ix3 g r c) = x1 (ix3 g c 3) := by
  rw [val_main_v45_apply, val_main_v31_apply, val_main_v30_apply, val_main_v11_apply]
  refine congrArg x1 (funext fun a => ?_)
  match a with
  | ⟨0, _⟩ => exact Fin.ext (by have := c.isLt; show ((g.val * 1 + 0) * 256 + c.val) / 256 = g.val; omega)
  | ⟨1, _⟩ => exact Fin.ext (by have := c.isLt; show ((g.val * 1 + 0) * 256 + c.val) / 1 % 256 = c.val; omega)
  | ⟨2, _⟩ => rfl

/-- The table of the second agent's sine: at (g, r, c) it is number 3 of second agent c. -/
theorem v55_at (x1 : A3) (g : Fin 8) (r c : Fin 256) :
    val_main_v55 (F := Ideal) x1 (ix3 g r c) = x1 (ix3 g c 3) := by
  rw [val_main_v55_apply, val_main_v31_apply, val_main_v30_apply, val_main_v11_apply]
  refine congrArg x1 (funext fun a => ?_)
  match a with
  | ⟨0, _⟩ => exact Fin.ext (by have := c.isLt; show ((g.val * 1 + 0) * 256 + c.val) / 256 = g.val; omega)
  | ⟨1, _⟩ => exact Fin.ext (by have := c.isLt; show ((g.val * 1 + 0) * 256 + c.val) / 1 % 256 = c.val; omega)
  | ⟨2, _⟩ => rfl

/-- The table of the second agent's cosine: at (g, r, c) it is number 4 of second agent c. -/
theorem v48_at (x1 : A3) (g : Fin 8) (r c : Fin 256) :
    val_main_v48 (F := Ideal) x1 (ix3 g r c) = x1 (ix3 g c 4) := by
  rw [val_main_v48_apply, val_main_v33_apply, val_main_v32_apply, val_main_v11_apply]
  refine congrArg x1 (funext fun a => ?_)
  match a with
  | ⟨0, _⟩ => exact Fin.ext (by have := c.isLt; show ((g.val * 1 + 0) * 256 + c.val) / 256 = g.val; omega)
  | ⟨1, _⟩ => exact Fin.ext (by have := c.isLt; show ((g.val * 1 + 0) * 256 + c.val) / 1 % 256 = c.val; omega)
  | ⟨2, _⟩ => rfl

/-- The table of the second agent's cosine: at (g, r, c) it is number 4 of second agent c. -/
theorem v52_at (x1 : A3) (g : Fin 8) (r c : Fin 256) :
    val_main_v52 (F := Ideal) x1 (ix3 g r c) = x1 (ix3 g c 4) := by
  rw [val_main_v52_apply, val_main_v33_apply, val_main_v32_apply, val_main_v11_apply]
  refine congrArg x1 (funext fun a => ?_)
  match a with
  | ⟨0, _⟩ => exact Fin.ext (by have := c.isLt; show ((g.val * 1 + 0) * 256 + c.val) / 256 = g.val; omega)
  | ⟨1, _⟩ => exact Fin.ext (by have := c.isLt; show ((g.val * 1 + 0) * 256 + c.val) / 1 % 256 = c.val; omega)
  | ⟨2, _⟩ => rfl

/-- The table of the second agent's speed: at (g, r, c) it is number 2 of second agent c. -/
theorem v70_at (x1 : A3) (g : Fin 8) (r c : Fin 256) :
    val_main_v70 (F := Ideal) x1 (ix3 g r c) = x1 (ix3 g c 2) := by
  rw [val_main_v70_apply, val_main_v69_apply, val_main_v68_apply, val_main_v11_apply]
  refine congrArg x1 (funext fun a => ?_)
  match a with
  | ⟨0, _⟩ => exact Fin.ext (by have := c.isLt; show ((g.val * 1 + 0) * 256 + c.val) / 256 = g.val; omega)
  | ⟨1, _⟩ => exact Fin.ext (by have := c.isLt; show ((g.val * 1 + 0) * 256 + c.val) / 1 % 256 = c.val; omega)
  | ⟨2, _⟩ => rfl

/-- The table of the first agent's negated sine: at (g, r, c) it is minus number 3 of first agent r. -/
theorem v40_at (x0 : A3) (g : Fin 8) (r c : Fin 256) :
    val_main_v40 (F := Ideal) x0 (ix3 g r c) = -(x0 (ix3 g r 3)) := by
  rw [val_main_v40_apply, val_main_v39_apply, val_main_v27_apply, val_main_v26_apply, val_main_v10_apply]
  show -(x0 _) = -(x0 _)
  refine congrArg (fun t => -(x0 t)) (funext fun a => ?_)
  match a with
  | ⟨0, _⟩ => exact Fin.ext (by have := r.isLt; show ((g.val * 256 + r.val) * 1 + 0) / 256 = g.val; omega)
  | ⟨1, _⟩ => exact Fin.ext (by have := r.isLt; show ((g.val * 256 + r.val) * 1 + 0) / 1 % 256 = r.val; omega)
  | ⟨2, _⟩ => rfl

end Cert.PairEdge.RefStage

end
-- ==== Proof.RefStageTables.lean ====
/-
  The reference program's pairwise tables, read at one pair.

  With a1 the first agent r of scene g and a2 the second agent c, the tables of the reference at (g, r, c) are: the
  displacement a2 - a1 in x and in y; that displacement rotated into the first agent's heading frame; the sine and
  cosine of the heading difference by the angle-difference formulas; the product of the two agents' validity masks;
  the four quantities times that mask (the masked rotated displacement, sine and cosine of the specification); the
  two masked displacements divided by ten; and the masked sine and cosine times the second agent's speed.
-/
import proofs.«160449_j30537217474895_2_alg».proof.Proof.PairEdge
import proofs.«160449_j30537217474895_2_alg».proof.Proof.MaskRef
import proofs.«160449_j30537217474895_2_alg».proof.Proof.RefReadP
import proofs.«160449_j30537217474895_2_alg».proof.Proof.RefStageCols

noncomputable section

namespace Cert.PairEdge.RefStage

open Idealize.ShloMosaic Idealize.ShloMosaic.ValueIdx Cert.PairEdge Cert.ReferenceIdeal Cert.ReferenceIdeal.ReadP

/-- The displacement in x: the second agent's x minus the first's. -/
theorem v18_at (x0 x1 : A3) (g : Fin 8) (r c : Fin 256) :
    val_main_v18 (F := Ideal) x0 x1 (ix3 g r c) = x1 (ix3 g c 0) - x0 (ix3 g r 0) := by
  rw [val_main_v18_apply, v16_at, v17_at]; rfl

/-- The displacement in y: the second agent's y minus the first's. -/
theorem v25_at (x0 x1 : A3) (g : Fin 8) (r c : Fin 256) :
    val_main_v25 (F := Ideal) x0 x1 (ix3 g r c) = x1 (ix3 g c 1) - x0 (ix3 g r 1) := by
  rw [val_main_v25_apply, v23_at, v24_at]; rfl

/-- The displacement along the first agent's heading: cosine times dx plus sine times dy. -/
theorem v38_at (x0 x1 : A3) (g : Fin 8) (r c : Fin 256) :
    val_main_v38 (F := Ideal) x0 x1 (ix3 g r c) = x0 (ix3 g r 4) * (x1 (ix3 g c 0) - x0 (ix3 g r 0)) + x0 (ix3 g r 3) * (x1 (ix3 g c 1) - x0 (ix3 g r 1)) := by
  rw [val_main_v38_apply, val_main_v35_apply, val_main_v37_apply, v34_at, v36_at, v18_at, v25_at]; rfl

/-- The displacement across the first agent's heading: minus sine times dx plus cosine times dy. -/
theorem v44_at (x0 x1 : A3) (g : Fin 8) (r c : Fin 256) :
    val_main_v44 (F := Ideal) x0 x1 (ix3 g r c) = -(x0 (ix3 g r 3)) * (x1 (ix3 g c 0) - x0 (ix3 g r 0)) + x0 (ix3 g r 4) * (x1 (ix3 g c 1) - x0 (ix3 g r 1)) := by
  rw [val_main_v44_apply, val_main_v41_apply, val_main_v43_apply, v40_at, v42_at, v18_at, v25_at]; rfl

/-- The sine of the heading difference: sin2 cos1 - cos2 sin1. -/
theorem v51_at (x0 x1 : A3) (g : Fin 8) (r c : Fin 256) :
    val_main_v51 (F := Ideal) x0 x1 (ix3 g r c) = x1 (ix3 g c 3) * x0 (ix3 g r 4) - x1 (ix3 g c 4) * x0 (ix3 g r 3) := by
  rw [val_main_v51_apply, val_main_v47_apply, val_main_v50_apply, v45_at, v46_at, v48_at, v49_at]; rfl

/-- The cosine of the heading difference: cos2 cos1 + sin2 sin1. -/
theorem v58_at (x0 x1 : A3) (g : Fin 8) (r c : Fin 256) :
    val_main_v58 (F := Ideal) x0 x1 (ix3 g r c) = x1 (ix3 g c 4) * x0 (ix3 g r 4) + x1 (ix3 g c 3) * x0 (ix3 g r 3) := by
  rw [val_main_v58_apply, val_main_v54_apply, val_main_v57_apply, v52_at, v53_at, v55_at, v56_at]; rfl

/-- The first agent's validity repeated along the columns. -/
theorem v61_at (x0 : A3) (g : Fin 8) (r c : Fin 256) :
    val_main_v61 (F := Ideal) x0 (ix3 g r c) = valid (fun k => x0 (ix3 g r k)) := by
  rw [val_main_v61_apply, val_main_v59_apply]
  refine (congrArg (val_main_v4 (F := Ideal) x0) (funext fun a => ?_)).trans (MaskRef.ref_valid1 x0 g r)
  match a with
  | ⟨0, _⟩ => rfl
  | ⟨1, _⟩ => rfl

/-- The second agent's validity repeated along the rows. -/
theorem v62_at (x1 : A3) (g : Fin 8) (r c : Fin 256) :
    val_main_v62 (F := Ideal) x1 (ix3 g r c) = valid (fun k => x1 (ix3 g c k)) := by
  rw [val_main_v62_apply, val_main_v60_apply]
  refine (congrArg (val_main_v9 (F := Ideal) x1) (funext fun a => ?_)).trans (MaskRef.ref_valid2 x1 g c)
  match a with
  | ⟨0, _⟩ => rfl
  | ⟨1, _⟩ => rfl

/-- The pair's mask: the product of the two validities. -/
theorem v63_at (x0 x1 : A3) (g : Fin 8) (r c : Fin 256) :
    val_main_v63 (F := Ideal) x0 x1 (ix3 g r c) = mask (fun k => x0 (ix3 g r k)) (fun k => x1 (ix3 g c k)) := by
  rw [val_main_v63_apply, v61_at, v62_at]; rfl

/-- The masked displacement along the heading is the specification's. -/
theorem v64_at (x0 x1 : A3) (g : Fin 8) (r c : Fin 256) :
    val_main_v64 (F := Ideal) x0 x1 (ix3 g r c) = dxr (fun k => x0 (ix3 g r k)) (fun k => x1 (ix3 g c k)) := by
  rw [val_main_v64_apply, v38_at, v63_at]; rfl

/-- The masked displacement across the heading is the specification's. -/
theorem v65_at (x0 x1 : A3) (g : Fin 8) (r c : Fin 256) :
    val_main_v65 (F := Ideal) x0 x1 (ix3 g r c) = dyr (fun k => x0 (ix3 g r k)) (fun k => x1 (ix3 g c k)) := by
  rw [val_main_v65_apply, v44_at, v63_at]; rfl

/-- The masked sine of the heading difference is the specification's. -/
theorem v66_at (x0 x1 : A3) (g : Fin 8) (r c : Fin 256) :
    val_main_v66 (F := Ideal) x0 x1 (ix3 g r c) = dsin (fun k => x0 (ix3 g r k)) (fun k => x1 (ix3 g c k)) := by
  rw [val_main_v66_apply, v51_at, v63_at]; rfl

/-- The masked cosine of the heading difference is the specification's. -/
theorem v67_at (x0 x1 : A3) (g : Fin 8) (r c : Fin 256) :
    val_main_v67 (F := Ideal) x0 x1 (ix3 g r c) = dcos (fun k => x0 (ix3 g r k)) (fun k => x1 (ix3 g c k)) := by
  rw [val_main_v67_apply, v58_at, v63_at]; rfl

/-- The masked displacement along the heading, divided by ten. -/
theorem v72_at (x0 x1 : A3) (g : Fin 8) (r c : Fin 256) :
    val_main_v72 (F := Ideal) x0 x1 (ix3 g r c)
      = Ideal.div (dxr (fun k => x0 (ix3 g r k)) (fun k => x1 (ix3 g c k))) ten := by
  rw [val_main_v72_apply, v64_at, val_main_v71_apply, val_main_cst_2_apply]; rfl

/-- The masked displacement across the heading, divided by ten. -/
theorem v74_at (x0 x1 : A3) (g : Fin 8) (r c : Fin 256) :
    val_main_v74 (F := Ideal) x0 x1 (ix3 g r c)
      = Ideal.div (dyr (fun k => x0 (ix3 g r k)) (fun k => x1 (ix3 g c k))) ten := by
  rw [val_main_v74_apply, v65_at, val_main_v73_apply, val_main_cst_3_apply]; rfl

/-- The second agent's speed times the masked sine. -/
theorem v75_at (x0 x1 : A3) (g : Fin 8) (r c : Fin 256) :
    val_main_v75 (F := Ideal) x0 x1 (ix3 g r c)
      = x1 (ix3 g c 2) * dsin (fun k => x0 (ix3 g r k)) (fun k => x1 (ix3 g c k)) := by
  rw [val_main_v75_apply, v70_at, v66_at]; rfl

/-- The second agent's speed times the masked cosine. -/
theorem v76_at (x0 x1 : A3) (g : Fin 8) (r c : Fin 256) :
    val_main_v76 (F := Ideal) x0 x1 (ix3 g r c)
      = x1 (ix3 g c 2) * dcos (fun k => x0 (ix3 g r k)) (fun k => x1 (ix3 g c k)) := by
  rw [val_main_v76_apply, v70_at, v67_at]; rfl

end Cert.PairEdge.RefStage

end
-- ==== Proof.LibPairLayout4.lean ====
/-
  Arrays of rank four joined along the last axis, read at an index: six arrays [a, b, c, 1] joined into [a, b, c, 6]
  (entry (g, r, s, e) is piece e at (g, r, s, 0)); and two arrays [a, b, c, m] and [a, b, c, n] joined into
  [a, b, c, k] (entry (g, r, s, e) is the first piece at e for e < m, the second at e - m otherwise).
  Row-major order throughout.
-/
import Idealize.ShloMosaic.Lib.Pipeline.Value
import Idealize.ShloMosaic.Lib.ValueIdx
import Idealize.ShloMosaic.Lib.ValueLayout

noncomputable section

namespace Cert.Lib.PairLayout4

open Idealize.ShloMosaic Idealize.ShloMosaic.ValueIdx

variable {α : Type}

/-- Six arrays [a, b, c, 1] joined along the last axis: entry (g, r, s, e) is piece e at (g, r, s, 0). -/
theorem concat6_at4 {a b c : ℕ} (x0 x1 x2 x3 x4 x5 : (⟨4, ![a, b, c, 1]⟩ : Shape).Idx → α)
    (h : Shape.Concatenates [(⟨4, ![a, b, c, 1]⟩ : Shape), ⟨4, ![a, b, c, 1]⟩, ⟨4, ![a, b, c, 1]⟩, ⟨4, ![a, b, c, 1]⟩, ⟨4, ![a, b, c, 1]⟩, ⟨4, ![a, b, c, 1]⟩] ⟨4, ![a, b, c, 6]⟩ (3 : Fin 4))
    (g : Fin a) (r : Fin b) (s : Fin c) (e : Fin 6) :
    concatenate ⟨4, ![a, b, c, 6]⟩ (3 : Fin 4) [⟨⟨4, ![a, b, c, 1]⟩, x0⟩, ⟨⟨4, ![a, b, c, 1]⟩, x1⟩, ⟨⟨4, ![a, b, c, 1]⟩, x2⟩, ⟨⟨4, ![a, b, c, 1]⟩, x3⟩, ⟨⟨4, ![a, b, c, 1]⟩, x4⟩, ⟨⟨4, ![a, b, c, 1]⟩, x5⟩] h (ix4 g r s e)
      = (![x0, x1, x2, x3, x4, x5] : Fin 6 → ((⟨4, ![a, b, c, 1]⟩ : Shape).Idx → α)) e (ix4 g r s (0 : Fin 1)) :=
  concatenate_ofFn_unit_apply (t := ⟨4, ![a, b, c, 6]⟩) (s₁ := ⟨4, ![a, b, c, 1]⟩) (3 : Fin 4)
    (![x0, x1, x2, x3, x4, x5] : Fin 6 → ((⟨4, ![a, b, c, 1]⟩ : Shape).Idx → α)) h rfl rfl (ix4 g r s e) e rfl
    (ix4 g r s (0 : Fin 1)) (fun bb hb => by
      match bb with
      | ⟨0, _⟩ => rfl
      | ⟨1, _⟩ => rfl
      | ⟨2, _⟩ => rfl
      | ⟨3, _⟩ => exact absurd rfl hb)

/-- Two arrays joined along the last axis, read in the first piece: entry (g, r, s, e) with e < m. -/
theorem concat2_left4 {a b c m n k : ℕ} (x : (⟨4, ![a, b, c, m]⟩ : Shape).Idx → α) (y : (⟨4, ![a, b, c, n]⟩ : Shape).Idx → α)
    (h : Shape.Concatenates [(⟨4, ![a, b, c, m]⟩ : Shape), ⟨4, ![a, b, c, n]⟩] ⟨4, ![a, b, c, k]⟩ (3 : Fin 4))
    (g : Fin a) (r : Fin b) (s : Fin c) (e : Fin k) (e' : Fin m) (he : e'.val = e.val) :
    concatenate ⟨4, ![a, b, c, k]⟩ (3 : Fin 4) [⟨⟨4, ![a, b, c, m]⟩, x⟩, ⟨⟨4, ![a, b, c, n]⟩, y⟩] h (ix4 g r s e) = x (ix4 g r s e') :=
  concatenate_pair_apply_left (3 : Fin 4) x y h (ix4 g r s e) rfl (ix4 g r s e') (fun bb => by
    match bb with
    | ⟨0, _⟩ => rfl
    | ⟨1, _⟩ => rfl
    | ⟨2, _⟩ => rfl
    | ⟨3, _⟩ => exact he)

/-- Two arrays joined along the last axis, read in the second piece: entry (g, r, s, e) with e = m + e'. -/
theorem concat2_right4 {a b c m n k : ℕ} (x : (⟨4, ![a, b, c, m]⟩ : Shape).Idx → α) (y : (⟨4, ![a, b, c, n]⟩ : Shape).Idx → α)
    (h : Shape.Concatenates [(⟨4, ![a, b, c, m]⟩ : Shape), ⟨4, ![a, b, c, n]⟩] ⟨4, ![a, b, c, k]⟩ (3 : Fin 4))
    (g : Fin a) (r : Fin b) (s : Fin c) (e : Fin k) (e' : Fin n) (he : e'.val + m = e.val) :
    concatenate ⟨4, ![a, b, c, k]⟩ (3 : Fin 4) [⟨⟨4, ![a, b, c, m]⟩, x⟩, ⟨⟨4, ![a, b, c, n]⟩, y⟩] h (ix4 g r s e) = y (ix4 g r s e') :=
  concatenate_pair_apply_right (3 : Fin 4) x y h (ix4 g r s e) rfl rfl (ix4 g r s e') (fun bb hb => by
    match bb with
    | ⟨0, _⟩ => rfl
    | ⟨1, _⟩ => rfl
    | ⟨2, _⟩ => rfl
    | ⟨3, _⟩ => exact absurd rfl hb) (by exact he)

end Cert.Lib.PairLayout4

end
-- ==== Proof.RefStageStack.lean ====
/-
  The reference program's stack of the eight edge features, read at one pair.

  Each of the first six features is a pairwise table given a trailing unit axis; the six are joined along that axis,
  and the second agent's two extras, repeated over the rows, are joined behind them. Read at (g, r, c, e) the stack
  is feature e of the edge from first agent r to second agent c of scene g.
-/
import proofs.«160449_j30537217474895_2_alg».proof.Proof.PairEdge
import proofs.«160449_j30537217474895_2_alg».proof.Proof.RefReadP
import proofs.«160449_j30537217474895_2_alg».proof.Proof.RefStageCols
import proofs.«160449_j30537217474895_2_alg».proof.Proof.RefStageTables
import proofs.«160449_j30537217474895_2_alg».proof.Proof.LibPairLayout4

noncomputable section

namespace Cert.PairEdge.RefStage

open Idealize.ShloMosaic Idealize.ShloMosaic.ValueIdx Cert.PairEdge Cert.ReferenceIdeal Cert.ReferenceIdeal.ReadP

open Cert.Lib.PairLayout4

/-- Feature 0 of the edge as a table with a trailing unit axis. -/
theorem v77_at (x0 x1 : A3) (g : Fin 8) (r c : Fin 256) (u : Fin 1) :
    val_main_v77 (F := Ideal) x0 x1 (ix4 g r c u) = Ideal.div (dxr (fun k => x0 (ix3 g r k)) (fun k => x1 (ix3 g c k))) ten := by
  rw [val_main_v77_apply]
  refine (congrArg (val_main_v72 (F := Ideal) x0 x1) (funext fun a => ?_)).trans (v72_at x0 x1 g r c)
  match a with
  | ⟨0, _⟩ => rfl
  | ⟨1, _⟩ => rfl
  | ⟨2, _⟩ => rfl

/-- Feature 1 of the edge as a table with a trailing unit axis. -/
theorem v78_at (x0 x1 : A3) (g : Fin 8) (r c : Fin 256) (u : Fin 1) :
    val_main_v78 (F := Ideal) x0 x1 (ix4 g r c u) = Ideal.div (dyr (fun k => x0 (ix3 g r k)) (fun k => x1 (ix3 g c k))) ten := by
  rw [val_main_v78_apply]
  refine (congrArg (val_main_v74 (F := Ideal) x0 x1) (funext fun a => ?_)).trans (v74_at x0 x1 g r c)
  match a with
  | ⟨0, _⟩ => rfl
  | ⟨1, _⟩ => rfl
  | ⟨2, _⟩ => rfl

/-- Feature 2 of the edge as a table with a trailing unit axis. -/
theorem v79_at (x0 x1 : A3) (g : Fin 8) (r c : Fin 256) (u : Fin 1) :
    val_main_v79 (F := Ideal) x0 x1 (ix4 g r c u) = dsin (fun k => x0 (ix3 g r k)) (fun k => x1 (ix3 g c k)) := by
  rw [val_main_v79_apply]
  refine (congrArg (val_main_v66 (F := Ideal) x0 x1) (funext fun a => ?_)).trans (v66_at x0 x1 g r c)
  match a with
  | ⟨0, _⟩ => rfl
  | ⟨1, _⟩ => rfl
  | ⟨2, _⟩ => rfl

/-- Feature 3 of the edge as a table with a trailing unit axis. -/
theorem v80_at (x0 x1 : A3) (g : Fin 8) (r c : Fin 256) (u : Fin 1) :
    val_main_v80 (F := Ideal) x0 x1 (ix4 g r c u) = dcos (fun k => x0 (ix3 g r k)) (fun k => x1 (ix3 g c k)) := by
  rw [val_main_v80_apply]
  refine (congrArg (val_main_v67 (F := Ideal) x0 x1) (funext fun a => ?_)).trans (v67_at x0 x1 g r c)
  match a with
  | ⟨0, _⟩ => rfl
  | ⟨1, _⟩ => rfl
  | ⟨2, _⟩ => rfl

/-- Feature 4 of the edge as a table with a trailing unit axis. -/
theorem v81_at (x0 x1 : A3) (g : Fin 8) (r c : Fin 256) (u : Fin 1) :
    val_main_v81 (F := Ideal) x0 x1 (ix4 g r c u) = x1 (ix3 g c 2) * dsin (fun k => x0 (ix3 g r k)) (fun k => x1 (ix3 g c k)) := by
  rw [val_main_v81_apply]
  refine (congrArg (val_main_v75 (F := Ideal) x0 x1) (funext fun a => ?_)).trans (v75_at x0 x1 g r c)
  match a with
  | ⟨0, _⟩ => rfl
  | ⟨1, _⟩ => rfl
  | ⟨2, _⟩ => rfl

/-- Feature 5 of the edge as a table with a trailing unit axis. -/
theorem v82_at (x0 x1 : A3) (g : Fin 8) (r c : Fin 256) (u : Fin 1) :
    val_main_v82 (F := Ideal) x0 x1 (ix4 g r c u) = x1 (ix3 g c 2) * dcos (fun k => x0 (ix3 g r k)) (fun k => x1 (ix3 g c k)) := by
  rw [val_main_v82_apply]
  refine (congrArg (val_main_v76 (F := Ideal) x0 x1) (funext fun a => ?_)).trans (v76_at x0 x1 g r c)
  match a with
  | ⟨0, _⟩ => rfl
  | ⟨1, _⟩ => rfl
  | ⟨2, _⟩ => rfl

/-- The second agent's extras repeated over the rows, entry 0: number 5 of second agent c. -/
theorem v85_at0 (x1 : A3) (g : Fin 8) (r c : Fin 256) :
    val_main_v85 (F := Ideal) x1 (ix4 g r c (0 : Fin 2)) = x1 (ix3 g c 5) := by
  rw [val_main_v85_apply, val_main_v84_apply, val_main_v11_apply]
  refine congrArg x1 (funext fun a => ?_)
  match a with
  | ⟨0, _⟩ => rfl
  | ⟨1, _⟩ => rfl
  | ⟨2, _⟩ => rfl

/-- The second agent's extras repeated over the rows, entry 1: number 6 of second agent c. -/
theorem v85_at1 (x1 : A3) (g : Fin 8) (r c : Fin 256) :
    val_main_v85 (F := Ideal) x1 (ix4 g r c (1 : Fin 2)) = x1 (ix3 g c 6) := by
  rw [val_main_v85_apply, val_main_v84_apply, val_main_v11_apply]
  refine congrArg x1 (funext fun a => ?_)
  match a with
  | ⟨0, _⟩ => rfl
  | ⟨1, _⟩ => rfl
  | ⟨2, _⟩ => rfl

/-- The six computed features joined along the last axis: entry e is piece e. -/
theorem v83_at (x0 x1 : A3) (g : Fin 8) (r c : Fin 256) (e : Fin 6) :
    val_main_v83 (F := Ideal) x0 x1 (ix4 g r c e)
      = (![val_main_v77 (F := Ideal) x0 x1, val_main_v78 (F := Ideal) x0 x1, val_main_v79 (F := Ideal) x0 x1,
           val_main_v80 (F := Ideal) x0 x1, val_main_v81 (F := Ideal) x0 x1, val_main_v82 (F := Ideal) x0 x1] :
          Fin 6 → ((⟨4, ![8, 256, 256, 1]⟩ : Shape).Idx → EReal)) e (ix4 g r c (0 : Fin 1)) := by
  unfold val_main_v83
  exact concat6_at4 _ _ _ _ _ _ _ g r c e

/-- The stack at (g, r, c, e) is feature e of the edge from first agent r to second agent c. -/
theorem stack_at (x0 x1 : A3) (g : Fin 8) (r c : Fin 256) (e : Fin 8) :
    val_main_v86 (F := Ideal) x0 x1 (ix4 g r c e) = edge (fun k => x0 (ix3 g r k)) (fun k => x1 (ix3 g c k)) e := by
  unfold val_main_v86
  match e with
  | ⟨0, _⟩ =>
    refine (concat2_left4 _ _ _ g r c (0 : Fin 8) (0 : Fin 6) rfl).trans ?_
    refine (v83_at x0 x1 g r c (0 : Fin 6)).trans ?_
    exact v77_at x0 x1 g r c 0
  | ⟨1, _⟩ =>
    refine (concat2_left4 _ _ _ g r c (1 : Fin 8) (1 : Fin 6) rfl).trans ?_
    refine (v83_at x0 x1 g r c (1 : Fin 6)).trans ?_
    exact v78_at x0 x1 g r c 0
  | ⟨2, _⟩ =>
    refine (concat2_left4 _ _ _ g r c (2 : Fin 8) (2 : Fin 6) rfl).trans ?_
    refine (v83_at x0 x1 g r c (2 : Fin 6)).trans ?_
    exact v79_at x0 x1 g r c 0
  | ⟨3, _⟩ =>
    refine (concat2_left4 _ _ _ g r c (3 : Fin 8) (3 : Fin 6) rfl).trans ?_
    refine (v83_at x0 x1 g r c (3 : Fin 6)).trans ?_
    exact v80_at x0 x1 g r c 0
  | ⟨4, _⟩ =>
    refine (concat2_left4 _ _ _ g r c (4 : Fin 8) (4 : Fin 6) rfl).trans ?_
    refine (v83_at x0 x1 g r c (4 : Fin 6)).trans ?_
    exact v81_at x0 x1 g r c 0
  | ⟨5, _⟩ =>
    refine (concat2_left4 _ _ _ g r c (5 : Fin 8) (5 : Fin 6) rfl).trans ?_
    refine (v83_at x0 x1 g r c (5 : Fin 6)).trans ?_
    exact v82_at x0 x1 g r c 0
  | ⟨6, _⟩ =>
    refine (concat2_right4 _ _ _ g r c (6 : Fin 8) (0 : Fin 2) rfl).trans ?_
    exact v85_at0 x1 g r c
  | ⟨7, _⟩ =>
    refine (concat2_right4 _ _ _ g r c (7 : Fin 8) (1 : Fin 2) rfl).trans ?_
    exact v85_at1 x1 g r c

end Cert.PairEdge.RefStage

end
-- ==== Proof.RefOut.lean ====
/-
  The reference program's result is the pairwise edge embedding.

  The reference builds, for every scene, the full tables of pairwise quantities by broadcasting the first agents
  along the columns and the second agents along the rows, stacks the eight features on a last axis, contracts that
  axis against the weight matrix's second axis and adds the bias. Read at one index (g, r, c, h) every stage is the
  corresponding quantity of first agent r and second agent c of scene g.
-/
import proofs.«160449_j30537217474895_2_alg».proof.Proof.PairEdge
import proofs.«160449_j30537217474895_2_alg».proof.Proof.MaskRef
import proofs.«160449_j30537217474895_2_alg».proof.Proof.RefReadP
import proofs.«160449_j30537217474895_2_alg».proof.Proof.RefStageStack

noncomputable section

namespace Cert.PairEdge.RefOut

open Idealize.ShloMosaic Idealize.ShloMosaic.ValueIdx Cert.PairEdge Cert.ReferenceIdeal Cert.ReferenceIdeal.ReadP

/-- The reference's last stage is `PairEdge.out` of the argument arrays. -/
theorem ref_eq (x0 x1 : (⟨Cert.ReferenceIdeal.S8x256x7, .f32⟩ : BufTy).Contents (Elt Ideal))
    (x2 : (⟨Cert.ReferenceIdeal.S128x8, .f32⟩ : BufTy).Contents (Elt Ideal))
    (x3 : (⟨Cert.ReferenceIdeal.S128, .f32⟩ : BufTy).Contents (Elt Ideal)) :
    Cert.ReferenceIdeal.ReadP.val_main_v90 (F := Ideal) x0 x1 x2 x3 = PairEdge.out x0 x1 x2 x3 := by
  funext i
  obtain ⟨g, r, c, h, rfl⟩ : ∃ (g : Fin 8) (r c : Fin 256) (h : Fin 128), i = ix4 g r c h :=
    ⟨i 0, i 1, i 2, i 3, eq_ix4 i⟩
  rw [out_ix4]
  unfold outAt
  rw [val_main_v90_apply, val_main_v87_apply, val_main_v89_apply, val_main_v88_apply, Ideal.addf_def]
  refine congrArg₂ (fun a b : EReal => a + b) (Finset.sum_congr rfl fun e _ => ?_) ?_
  · -- the contraction reads the stack at (g, r, c, e) and the weights at (h, e)
    have hl : lidx_main_v87 (ix4 g r c h) e = ix4 g r c e := funext fun a => by
      match a with
      | ⟨0, _⟩ => rfl
      | ⟨1, _⟩ => rfl
      | ⟨2, _⟩ => rfl
      | ⟨3, _⟩ => rfl
    have hr : ridx_main_v87 (ix4 g r c h) e = ix2 h e := funext fun a => by
      match a with
      | ⟨0, _⟩ => rfl
      | ⟨1, _⟩ => rfl
    rw [hl, hr, RefStage.stack_at]
  · -- the bias is repeated over the three leading axes
    refine congrArg x3 (funext fun a => ?_)
    match a with
    | ⟨0, _⟩ => rfl

end Cert.PairEdge.RefOut

end
-- ==== Proof.LibNarySix.lean ====
/-
  The result of an operation with six operands, each operand at its own buffer.

  An operation that reads a literal family of six buffers (a join of six arrays) writes, at its result buffer, its
  function of the six buffers' contents. Stated with each operand's contents at its own reference, and not through the
  family applied to a bound index, the operands' contents can go on being read off the earlier operations one by one.
-/
import Idealize.ShloMosaic.Lib.StableHlo.Run

noncomputable section

namespace Cert.Lib.NarySix

open Idealize.ShloMosaic Idealize.ShloMosaic.StableHlo

variable {τ : Topo} {sig : RefSig} {Val : EltTy → Type}
variable {x0 x1 x2 x3 x4 x5 y : Ref sig .tc}

/-- The six operands' contents, each at its own reference, in place of the family applied to an index. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

/-- The same, keyed for a rewriting pass: the result reference is not part of the pattern. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) :=
  nary6_result f hxs hy F

end Cert.Lib.NarySix

end
-- ==== Proof.RefResult.lean ====
/-
  What the reference program leaves in its result buffer, as the last stage of its read-at-an-index module.

  The program is a straight line of operations, each writing one buffer from buffers written before it, so the
  contents of the result buffer after the line are the operations' functions composed along the data flow, applied to
  the launch contents of the four arguments. The composition is computed one operation at a time; the join of six
  arrays is read with each operand at its own buffer, so that the operands are computed in turn like everything else.
-/
import proofs.«160449_j30537217474895_2_alg».proof.Proof.RefRunA
import proofs.«160449_j30537217474895_2_alg».proof.Proof.RefReadP
import proofs.«160449_j30537217474895_2_alg».proof.Proof.LibNarySix

noncomputable section

namespace Cert.PairEdge.RefResult

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

set_option maxRecDepth 65536 in
set_option maxHeartbeats 4000000 in
/-- The result buffer after the operations, from any contents `V`: the last stage applied to `V` at the arguments. -/
theorem result_eq (V : Valuation τ sig (Elt F)) :
    after (ops (F := F)) V (Proc.devRef .tc main_v90)
      = Cert.ReferenceIdeal.ReadP.val_main_v90 (F := F) (V (Proc.devRef .tc main_arg0)) (V (Proc.devRef .tc main_arg1))
          (V (Proc.devRef .tc main_arg2)) (V (Proc.devRef .tc main_arg3)) := by
  simp (disch := decide) only [after_cons, after_nil,
    nullary_result', unary_result', binary_result', ternary_result', quaternary_result', reshape_result',
    Cert.Lib.NarySix.nary6_result', unaryIndexed_result', binaryIndexed_result',
    nullary_result_ne', unary_result_ne', binary_result_ne', ternary_result_ne', quaternary_result_ne', reshape_result_ne',
    nary_result_ne', unaryIndexed_result_ne', binaryIndexed_result_ne']
  rfl

end Cert.PairEdge.RefResult

end
-- ==== Proof.lean ====
/-
  The certificate of the pairwise edge embedding.

  Both programs compute, for every scene g, first agent r, second agent c and channel h, the same number: the eight
  features of the edge from r to c (the displacement rotated into r's heading frame over ten, the sine and cosine of
  the heading difference, those two times c's speed, c's two extras; the first four under the validity mask of the pair)
  dotted with row h of the weight matrix, plus the bias at h (`PairEdge.out`, Proof/PairEdge.lean).

  The kernel tiles the pairs: a grid point takes 64 first agents and 128 second agents of one scene, builds the
  64 x 128 tables, lays the pairs out as 8192 rows of eight features, multiplies them into the transposed weights and
  adds the bias; its blocks tile the output (Proof/Body*.lean, Proof/KernelOut.lean). The reference builds the full
  tables by broadcasting and contracts the stacked features against the weights (Proof/RefStage*.lean,
  Proof/RefOut.lean). The two differ in layout and tiling only, in how the mask is asked (a minimum of ones and zeros
  against an "and" of comparison bits: Proof/Mask*.lean), in the spelling of a negation (zero minus the sine), and in
  the weight matrix being transposed beforehand; over the extended reals none of these changes a value, and no step
  needs the inputs to be finite: the precondition is never opened.

  The idealization rewrote no operation, so it preserves the kernel trivially; the three frames are the generated
  ones, the reference's being its run with the result dropped.
-/
import proofs.«160449_j30537217474895_2_alg».proof.Defs
import proofs.«160449_j30537217474895_2_alg».proof.Proof.Gen.Kernel
import proofs.«160449_j30537217474895_2_alg».proof.Proof.Gen.Kernel.Skeleton
import proofs.«160449_j30537217474895_2_alg».proof.Proof.Gen.Kernel.Launch
import proofs.«160449_j30537217474895_2_alg».proof.Proof.Gen.Kernel.Points
import proofs.«160449_j30537217474895_2_alg».proof.Proof.Gen.Kernel.Frame
import proofs.«160449_j30537217474895_2_alg».proof.Proof.Gen.KernelIdeal
import proofs.«160449_j30537217474895_2_alg».proof.Proof.Gen.KernelIdeal.Skeleton
import proofs.«160449_j30537217474895_2_alg».proof.Proof.Gen.KernelIdeal.Launch
import proofs.«160449_j30537217474895_2_alg».proof.Proof.Gen.KernelIdeal.Points
import proofs.«160449_j30537217474895_2_alg».proof.Proof.Gen.KernelIdeal.Frame
import proofs.«160449_j30537217474895_2_alg».proof.Proof.Gen.KernelIdeal.Value
import proofs.«160449_j30537217474895_2_alg».proof.Proof.Gen.ReferenceIdeal
import proofs.«160449_j30537217474895_2_alg».proof.Proof.Gen.Pre_finite_inputs
import proofs.«160449_j30537217474895_2_alg».proof.Proof.KernelOut
import proofs.«160449_j30537217474895_2_alg».proof.Proof.RefOut
import proofs.«160449_j30537217474895_2_alg».proof.Proof.RefRunA
import proofs.«160449_j30537217474895_2_alg».proof.Proof.RefResult
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- Every weakly fair execution of the idealized reference ends with its result array at the pairwise edge embedding
    of the argument arrays, and the argument arrays unchanged: the library's run of a straight line of operations, the
    result buffer read as the last stage (Proof/RefResult.lean), the last stage as the embedding (Proof/RefOut.lean). -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v90)
          = Cert.PairEdge.out (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono (fun _ h c =>
    ⟨(h c Cert.ReferenceIdeal.main_v90).trans ((Cert.PairEdge.RefResult.result_eq _).trans (Cert.PairEdge.RefOut.ref_eq _ _ _ _)),
      (h c Cert.ReferenceIdeal.main_arg0).trans (Cert.ReferenceIdeal.ValueP.after_main_arg0 _),
      (h c Cert.ReferenceIdeal.main_arg1).trans (Cert.ReferenceIdeal.ValueP.after_main_arg1 _),
      (h c Cert.ReferenceIdeal.main_arg2).trans (Cert.ReferenceIdeal.ValueP.after_main_arg2 _),
      (h c Cert.ReferenceIdeal.main_arg3).trans (Cert.ReferenceIdeal.ValueP.after_main_arg3 _)⟩)
    (Cert.ReferenceIdeal.ValueP.run_after (F := Ideal) m ρ)

/-- The idealized reference runs and leaves its arguments as they were: its run with the result dropped. -/
theorem frame_referenceIdeal : Cert.frame_ReferenceIdeal := fun m ρ _ =>
  (θ_run Cert.ReferenceIdeal.defs _ _).mono (fun _ h c => (h c).2) (reference_run m ρ)

/-- The idealization rewrote no operation. -/
theorem preserves : Cert.preserves_Kernel_KernelIdeal := trivial

/-- From memories that agree on the arguments both idealized programs end with the pairwise edge embedding of the
    arguments in their result arrays. -/
theorem algebraic : Cert.algebraic_KernelIdeal_ReferenceIdeal := by
  intro m ρ m' ρ' _ hagree
  refine ⟨_, Cert.PairEdge.KernelOut.kernel_run m ρ, ?_⟩
  refine (θ_run Cert.ReferenceIdeal.defs _ _).mono (fun _ h c => ⟨(h c).1.trans ?_, (h c).2⟩) (reference_run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
